-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x256 : Shape := ⟨2, ![1024, 256]⟩
abbrev S256 : Shape := ⟨1, ![256]⟩
abbrev S256x256 : Shape := ⟨2, ![256, 256]⟩
abbrev S256x51000 : Shape := ⟨2, ![256, 51000]⟩
abbrev S51000 : Shape := ⟨1, ![51000]⟩
abbrev S256x51 : Shape := ⟨2, ![256, 51]⟩
abbrev S51 : Shape := ⟨1, ![51]⟩
abbrev S2048x200 : Shape := ⟨2, ![2048, 200]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x51000 : S_.BroadcastsInDim S256x51000 (![] : Fin 0 → Fin S256x51000.rank)
  reducesTo_S256x51000_S_d0_1 : S256x51000.ReducesTo [0, 1] S_
  bcast_S_S51000 : S_.BroadcastsInDim S51000 (![] : Fin 0 → Fin S51000.rank)
  reducesTo_S51000_S_d0 : S51000.ReducesTo [0] S_
  bcast_S_S256x51 : S_.BroadcastsInDim S256x51 (![] : Fin 0 → Fin S256x51.rank)
  reducesTo_S256x51_S_d0_1 : S256x51.ReducesTo [0, 1] S_
  bcast_S_S51 : S_.BroadcastsInDim S51 (![] : Fin 0 → Fin S51.rank)
  reducesTo_S51_S_d0 : S51.ReducesTo [0] S_

variable [Facts]

def fn_part3 {F : FTy → Type} [FloatOps F] (main_arg11 : FVec F S51 .f32) (main_v48 : IVec S_ 1) (main_v49 : FVec F S51 .f32) (main_v50 : FVec F S51 .f32) : IVec S_ 1 :=
  let main_v51 : IVec S51 1 := cmpf .olt main_v49 main_v50
  let main_c_19 : IVec S_ 1 := constantI S_ 1 1#1
  let main_v52 : IVec S_ 1 := (fun x v => Host.reduce IntOp.andi x v reducesTo_S51_S_d0 h_S_) main_v51 main_c_19
  let main_v53 : IVec S_ 1 := andi main_v48 main_v52
  let main_v54 : FVec F S51 .f32 := Host.absf main_arg11
  let main_cst_20 : FVec F S_ .f32 := constant S_ .f32 0x7F800000#32
  let main_v55 : FVec F S51 .f32 := broadcastInDim S51 ![] bcast_S_S51 main_cst_20
  let main_v56 : IVec S51 1 := cmpf .olt main_v54 main_v55
  let main_c_21 : IVec S_ 1 := constantI S_ 1 1#1
  let main_v57 : IVec S_ 1 := (fun x v => Host.reduce IntOp.andi x v reducesTo_S51_S_d0 h_S_) main_v56 main_c_21
  let main_v58 : IVec S_ 1 := andi main_v53 main_v57
  main_v58

def fn_part2 {F : FTy → Type} [FloatOps F] (main_arg7 : FVec F S256x256 .f32) (main_arg8 : FVec F S256 .f32) (main_arg9 : FVec F S256x51 .f32) (main_arg10 : FVec F S51 .f32) (main_arg11 : FVec F S51 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x51 .f32 := Host.absf main_arg9
  let main_cst_16 : FVec F S_ .f32 := constant S_ .f32 0x7F800000#32
  let main_v45 : FVec F S256x51 .f32 := broadcastInDim S256x51 ![] bcast_S_S256x51 main_cst_16
  let main_v46 : IVec S256x51 1 := cmpf .olt main_v44 main_v45
  let main_c_17 : IVec S_ 1 := constantI S_ 1 1#1
  let main_v47 : IVec S_ 1 := (fun x v => Host.reduce IntOp.andi x v reducesTo_S256x51_S_d0_1 h_S_) main_v46 main_c_17
  let main_v48 : IVec S_ 1 := andi main_v43 main_v47
  let main_v49 : FVec F S51 .f32 := Host.absf main_arg10
  let main_cst_18 : FVec F S_ .f32 := constant S_ .f32 0x7F800000#32
  let main_v50 : FVec F S51 .f32 := broadcastInDim S51 ![] bcast_S_S51 main_cst_18
  fn_part3 (F := F) main_arg11 main_v48 main_v49 main_v50

def fn_part1 {F : FTy → Type} [FloatOps F] (main_arg4 : FVec F S256 .f32) (main_arg5 : FVec F S256x51000 .f32) (main_arg6 : FVec F S51000 .f32) (main_arg7 : FVec F S256x256 .f32) (main_arg8 : FVec F S256 .f32) (main_arg9 : FVec F S256x51 .f32) (main_arg10 : FVec F S51 .f32) (main_arg11 : FVec F S51 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x51000 .f32 := Host.absf main_arg5
  let main_cst_8 : FVec F S_ .f32 := constant S_ .f32 0x7F800000#32
  let main_v25 : FVec F S256x51000 .f32 := broadcastInDim S256x51000 ![] bcast_S_S256x51000 main_cst_8
  let main_v26 : IVec S256x51000 1 := cmpf .olt main_v24 main_v25
  let main_c_9 : IVec S_ 1 := constantI S_ 1 1#1
  let main_v27 : IVec S_ 1 := (fun x v => Host.reduce IntOp.andi x v reducesTo_S256x51000_S_d0_1 h_S_) main_v26 main_c_9
  let main_v28 : IVec S_ 1 := andi main_v23 main_v27
  let main_v29 : FVec F S51000 .f32 := Host.absf main_arg6
  let main_cst_10 : FVec F S_ .f32 := constant S_ .f32 0x7F800000#32
  let main_v30 : FVec F S51000 .f32 := broadcastInDim S51000 ![] bcast_S_S51000 main_cst_10
  let main_v31 : IVec S51000 1 := cmpf .olt main_v29 main_v30
  let main_c_11 : IVec S_ 1 := constantI S_ 1 1#1
  let main_v32 : IVec S_ 1 := (fun x v => Host.reduce IntOp.andi x v reducesTo_S51000_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x1024 .f32) (main_arg1 : FVec F S1024x256 .f32) (main_arg2 : FVec F S256 .f32) (main_arg3 : FVec F S256x256 .f32) (main_arg4 : FVec F S256 .f32) (main_arg5 : FVec F S256x51000 .f32) (main_arg6 : FVec F S51000 .f32) (main_arg7 : FVec F S256x256 .f32) (main_arg8 : FVec F S256 .f32) (main_arg9 : FVec F S256x51 .f32) (main_arg10 : FVec F S51 .f32) (main_arg11 : FVec F S51 .f32) (main_arg12 : IVec S2048x200 32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_v13 main_v16
-- ==== Kernel.lean ====
abbrev S2048x1024 : Shape := ⟨2, ![2048, 1024]⟩
abbrev S1024x256 : Shape := ⟨2, ![1024, 256]⟩
abbrev S256 : Shape := ⟨1, ![256]⟩
abbrev S256x256 : Shape := ⟨2, ![256, 256]⟩
abbrev S256x51000 : Shape := ⟨2, ![256, 51000]⟩
abbrev S51000 : Shape := ⟨1, ![51000]⟩
abbrev S256x51 : Shape := ⟨2, ![256, 51]⟩
abbrev S51 : Shape := ⟨1, ![51]⟩
abbrev S2048x200 : Shape := ⟨2, ![2048, 200]⟩
abbrev S256x1000x51 : Shape := ⟨3, ![256, 1000, 51]⟩
abbrev S1000x51 : Shape := ⟨2, ![1000, 51]⟩
abbrev S_ : Shape := ⟨0, ![]⟩
abbrev S256x1024x51 : Shape := ⟨3, ![256, 1024, 51]⟩
abbrev S256x52224 : Shape := ⟨2, ![256, 52224]⟩
abbrev S1024x51 : Shape := ⟨2, ![1024, 51]⟩
abbrev S2048x1000 : Shape := ⟨2, ![2048, 1000]⟩
abbrev S2048 : Shape := ⟨1, ![2048]⟩
abbrev S2048x1 : Shape := ⟨2, ![2048, 1]⟩
abbrev S2048x200x1 : Shape := ⟨3, ![2048, 200, 1]⟩
abbrev S2048x200x2 : Shape := ⟨3, ![2048, 200, 2]⟩
abbrev S512x1024 : Shape := ⟨2, ![512, 1024]⟩
abbrev S256x6528 : Shape := ⟨2, ![256, 6528]⟩
abbrev S128x51 : Shape := ⟨2, ![128, 51]⟩
abbrev S512x128 : Shape := ⟨2, ![512, 128]⟩
abbrev S512x256 : Shape := ⟨2, ![512, 256]⟩
abbrev S512x51 : Shape := ⟨2, ![512, 51]⟩
abbrev S1x256 : Shape := ⟨2, ![1, 256]⟩
abbrev S1x51 : Shape := ⟨2, ![1, 51]⟩
abbrev S512x6528 : Shape := ⟨2, ![512, 6528]⟩
abbrev S512x128x51 : Shape := ⟨3, ![512, 128, 51]⟩
abbrev S1x128x51 : Shape := ⟨3, ![1, 128, 51]⟩
abbrev S512x1x51 : Shape := ⟨3, ![512, 1, 51]⟩
abbrev S512x128x1 : Shape := ⟨3, ![512, 128, 1]⟩
abbrev S1x1x51 : Shape := ⟨3, ![1, 1, 51]⟩

abbrev nBuf : Space → Nat
  | .hbm => 63
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S1024x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x51000, .f32⟩
  | .hbm, ⟨6, _⟩ => ⟨S51000, .f32⟩
  | .hbm, ⟨7, _⟩ => ⟨S256x256, .f32⟩
  | .hbm, ⟨8, _⟩ => ⟨S256, .f32⟩
  | .hbm, ⟨9, _⟩ => ⟨S256x51, .f32⟩
  | .hbm, ⟨10, _⟩ => ⟨S51, .f32⟩
  | .hbm, ⟨11, _⟩ => ⟨S51, .f32⟩
  | .hbm, ⟨12, _⟩ => ⟨S2048x200, .i32⟩
  | .hbm, ⟨13, _⟩ => ⟨S256x1000x51, .f32⟩
  | .hbm, ⟨14, _⟩ => ⟨S1000x51, .f32⟩
  | .hbm, ⟨15, _⟩ => ⟨S_, .f32⟩
  | .hbm, ⟨16, _⟩ => ⟨S256x51, .f32⟩
  | .hbm, ⟨17, _⟩ => ⟨S_, .f32⟩
  | .hbm, ⟨18, _⟩ => ⟨S256x51, .f32⟩
  | .hbm, ⟨19, _⟩ => ⟨S256x51, .f32⟩
  | .hbm, ⟨20, _⟩ => ⟨S_, .f32⟩
  | .hbm, ⟨21, _⟩ => ⟨S51, .f32⟩
  | .hbm, ⟨22, _⟩ => ⟨S_, .f32⟩
  | .hbm, ⟨23, _⟩ => ⟨S51, .f32⟩
  | .hbm, ⟨24, _⟩ => ⟨S51, .f32⟩
  | .hbm, ⟨25, _⟩ => ⟨S_, .i32⟩
  | .hbm, ⟨26, _⟩ => ⟨S_, .f32⟩
  | .hbm, ⟨27, _⟩ => ⟨S256x1024x51, .f32⟩
  | .hbm, ⟨28, _⟩ => ⟨S256x52224, .f32⟩
  | .hbm, ⟨29, _⟩ => ⟨S256x52224, .bf16⟩
  | .hbm, ⟨30, _⟩ => ⟨S_, .i32⟩
  | .hbm, ⟨31, _⟩ => ⟨S_, .f32⟩
  | .hbm, ⟨32, _⟩ => ⟨S1024x51, .f32⟩
  | .hbm, ⟨33, _⟩ => ⟨S_, .f32⟩
  | .hbm, ⟨34, _⟩ => ⟨S2048x1000, .f32⟩
  | .hbm, ⟨35, _⟩ => ⟨S2048, .i32⟩
  | .hbm, ⟨36, _⟩ => ⟨S2048x1, .i32⟩
  | .hbm, ⟨37, _⟩ => ⟨S_, .i32⟩
  | .hbm, ⟨38, _⟩ => ⟨S2048x1, .i32⟩
  | .hbm, ⟨39, _⟩ => ⟨S2048x1, .i1⟩
  | .hbm, ⟨40, _⟩ => ⟨S_, .i32⟩
  | .hbm, ⟨41, _⟩ => ⟨S2048x1, .i32⟩
  | .hbm, ⟨42, _⟩ => ⟨S2048x1, .i32⟩
  | .hbm, ⟨43, _⟩ => ⟨S2048x1, .i32⟩
  | .hbm, ⟨44, _⟩ => ⟨S_, .i32⟩
  | .hbm, ⟨45, _⟩ => ⟨S2048x200, .i32⟩
  | .hbm, ⟨46, _⟩ => ⟨S2048x200, .i1⟩
  | .hbm, ⟨47, _⟩ => ⟨S_, .i32⟩
  | .hbm, ⟨48, _⟩ => ⟨S2048x200, .i32⟩
  | .hbm, ⟨49, _⟩ => ⟨S2048x200, .i32⟩
  | .hbm, ⟨50, _⟩ => ⟨S2048x200, .i32⟩
  | .hbm, ⟨51, _⟩ => ⟨S2048x200, .i32⟩
  | .hbm, ⟨52, _⟩ => ⟨S2048x200x1, .i32⟩
  | .hbm, ⟨53, _⟩ => ⟨S2048x200x1, .i32⟩
  | .hbm, ⟨54, _⟩ => ⟨S2048x200x2, .i32⟩
  | .hbm, ⟨55, _⟩ => ⟨S_, .f32⟩
  | .hbm, ⟨56, _⟩ => ⟨S2048x200, .f32⟩
  | .hbm, ⟨57, _⟩ => ⟨S2048x1000, .f32⟩
  | .hbm, ⟨58, _⟩ => ⟨S_, .i32⟩
  | .hbm, ⟨59, _⟩ => ⟨S_, .f32⟩
  | .hbm, ⟨60, _⟩ => ⟨S2048x1024, .f32⟩
  | .hbm, ⟨61, _⟩ => ⟨S2048x1024, .f32⟩
  | .hbm, ⟨62, _⟩ => ⟨S2048x1000, .f32⟩
  | .local _ .vmem, ⟨0, _⟩ => ⟨S512x1024, .f32⟩
  | .local _ .vmem, ⟨1, _⟩ => ⟨S512x1024, .f32⟩
  | .local _ .vmem, ⟨2, _⟩ => ⟨S1024x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x51, .f32⟩
  | .local _ .vmem, ⟨9, _⟩ => ⟨S51, .f32⟩
  | .local _ .vmem, ⟨10, _⟩ => ⟨S256x51, .f32⟩
  | .local _ .vmem, ⟨11, _⟩ => ⟨S51, .f32⟩
  | .local _ .vmem, ⟨12, _⟩ => ⟨S51, .f32⟩
  | .local _ .vmem, ⟨13, _⟩ => ⟨S256x6528, .bf16⟩
  | .local _ .vmem, ⟨14, _⟩ => ⟨S256x6528, .bf16⟩
  | .local _ .vmem, ⟨15, _⟩ => ⟨S128x51, .f32⟩
  | .local _ .vmem, ⟨16, _⟩ => ⟨S128x51, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x256, .f32⟩
  | .local _ .vmem, ⟨22, _⟩ => ⟨S512x51, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_call0_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_3 : Ref sig .tc := ⟨.hbm, 30, rfl⟩
abbrev main_call1_v0 : Ref sig .tc := ⟨.hbm, 31, rfl⟩
abbrev main_v11 : Ref sig .tc := ⟨.hbm, 32, rfl⟩
abbrev main_cst_4 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_5 : Ref sig .tc := ⟨.hbm, 37, rfl⟩
abbrev main_v15 : Ref sig .tc := ⟨.hbm, 38, rfl⟩
abbrev main_v16 : Ref sig .tc := ⟨.hbm, 39, rfl⟩
abbrev main_c_6 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_7 : Ref sig .tc := ⟨.hbm, 44, rfl⟩
abbrev main_v20 : Ref sig .tc := ⟨.hbm, 45, rfl⟩
abbrev main_v21 : Ref sig .tc := ⟨.hbm, 46, rfl⟩
abbrev main_c_8 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_9 : Ref sig .tc := ⟨.hbm, 55, rfl⟩
abbrev main_v29 : Ref sig .tc := ⟨.hbm, 56, rfl⟩
abbrev main_v30 : Ref sig .tc := ⟨.hbm, 57, rfl⟩
abbrev main_c_10 : Ref sig .tc := ⟨.hbm, 58, rfl⟩
abbrev main_call2_v0 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x51 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S51 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x51 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S51 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S51 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x6528 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S128x51 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

class Facts₀ : Prop where
  shapeCasts_S256x51000_S256x1000x51 : S256x51000.ShapeCasts S256x1000x51
  shapeCasts_S51000_S1000x51 : S51000.ShapeCasts S1000x51
  reducesTo_S256x1000x51_S256x51_d1 : S256x1000x51.ReducesTo [1] S256x51
  h_S_ : 0 < S_.numel
  bcast_S_S256x51 : S_.BroadcastsInDim S256x51 (![] : Fin 0 → Fin S256x51.rank)
  reducesTo_S1000x51_S51_d0 : S1000x51.ReducesTo [0] S51
  bcast_S_S51 : S_.BroadcastsInDim S51 (![] : Fin 0 → Fin S51.rank)
  pads_S256x1000x51_S256x1024x51_000_0240_000 : S256x1000x51.Pads (![0, 0, 0] : Fin 3 → Nat) ![0, 24, 0] ![0, 0, 0] S256x1024x51
  shapeCasts_S256x1024x51_S256x52224 : S256x1024x51.ShapeCasts S256x52224
  bitsLt_bf16_f32 : FTy.bits .bf16 < FTy.bits .f32
  pads_S1000x51_S1024x51_0240_000 : S1000x51.Pads (![0, 0] : Fin 2 → Nat) ![24, 0] ![0, 0] S1024x51
  bcast_S_S2048x1000 : S_.BroadcastsInDim S2048x1000 (![] : Fin 0 → Fin S2048x1000.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S_S2048x200 : S_.BroadcastsInDim S2048x200 (![] : Fin 0 → Fin S2048x200.rank)
  bcast_S2048x1_S2048x200_0_1 : S2048x1.BroadcastsInDim S2048x200 (![0, 1] : Fin 2 → Fin S2048x200.rank)
  bcast_S2048x200_S2048x200x1_0_1 : S2048x200.BroadcastsInDim S2048x200x1 (![0, 1] : Fin 2 → Fin S2048x200x1.rank)
  concatenates_S2048x200x1_S2048x200x1_S2048x200x2_d2 : Shape.Concatenates [S2048x200x1, S2048x200x1] S2048x200x2 2
  pads_S2048x1000_S2048x1024_000_0240 : S2048x1000.Pads (![0, 0] : Fin 2 → Nat) ![0, 24] ![0, 0] S2048x1024
  inb_S512x1024_S512x1024_0_0 : ∀ a, (![0, 0] : Fin 2 → Nat) a + S512x1024.size a ≤ S512x1024.size a
  h_S512x1024 : 0 < S512x1024.numel
  inb_S1024x256_S1024x256_0_0 : ∀ a, (![0, 0] : Fin 2 → Nat) a + S1024x256.size a ≤ S1024x256.size a
  h_S1024x256 : 0 < S1024x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  inb_S256x51_S256x51_0_0 : ∀ a, (![0, 0] : Fin 2 → Nat) a + S256x51.size a ≤ S256x51.size a
  h_S256x51 : 0 < S256x51.numel
  inb_S51_S51_0 : ∀ a, (![0] : Fin 1 → Nat) a + S51.size a ≤ S51.size a
  h_S51 : 0 < S51.numel
  shapeCasts_S51_S1x51 : S51.ShapeCasts S1x51
  broadcasts_S1x51_S512x51 : S1x51.Broadcasts S512x51
  shapeCasts_S256x51_S256x51 : S256x51.ShapeCasts S256x51
  shapeCasts_S51_S51 : S51.ShapeCasts S51
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x51_S512x51_0_0 : ∀ a, (![0, 0] : Fin 2 → Nat) a + S512x51.size a ≤ S512x51.size a
  h_S512x51 : 0 < S512x51.numel
  shapeCasts_S512x51_S512x51 : S512x51.ShapeCasts S512x51
  inb_S256x6528_S256x6528_0_0 : ∀ a, (![0, 0] : Fin 2 → Nat) a + S256x6528.size a ≤ S256x6528.size a
  h_S256x6528 : 0 < S256x6528.numel
  shapeCasts_S256x6528_S256x6528 : S256x6528.ShapeCasts S256x6528
  shapeCasts_S512x6528_S512x128x51 : S512x6528.ShapeCasts S512x128x51
  inb_S128x51_S128x51_0_0 : ∀ a, (![0, 0] : Fin 2 → Nat) a + S128x51.size a ≤ S128x51.size a
  h_S128x51 : 0 < S128x51.numel
  shapeCasts_S128x51_S128x51 : S128x51.ShapeCasts S128x51
  shapeCasts_S128x51_S1x128x51 : S128x51.ShapeCasts S1x128x51
  broadcasts_S1x128x51_S512x128x51 : S1x128x51.Broadcasts S512x128x51
  shapeCasts_S512x51_S512x1x51 : S512x51.ShapeCasts S512x1x51
  broadcasts_S512x1x51_S512x128x51 : S512x1x51.Broadcasts S512x128x51
  reduces_S512x128x51_S512x128 : S512x128x51.Reduces [2] S512x128
  shapeCasts_S512x128_S512x128x1 : S512x128.ShapeCasts S512x128x1
  broadcasts_S512x128x1_S512x128x51 : S512x128x1.Broadcasts S512x128x51
  shapeCasts_S51_S1x1x51 : S51.ShapeCasts S1x1x51
  broadcasts_S1x1x51_S512x128x51 : S1x1x51.Broadcasts S512x128x51
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S2048x1024_S2048x1000_0_0 : S2048x1024.Slices ![0, 0] S2048x1000
  scatter_S2048x1000_S2048x200x2_S2048x200_n_01_01_2_wf : ScatterDims.WF S2048x1000 S2048x200x2 S2048x200 [] [0, 1] [0, 1] 2
  dot_S512x1024_S1024x256_S512x256_1_0_0_1_n_n_wf : DotDims.WF S512x1024 S1024x256 S512x256 [1] [0] [0] [1] [] []
  dot_S512x256_S256x256_S512x256_1_0_0_1_n_n_wf : DotDims.WF S512x256 S256x256 S512x256 [1] [0] [0] [1] [] []
  dot_S512x256_S256x51_S512x51_1_0_0_1_n_n_wf : DotDims.WF S512x256 S256x51 S512x51 [1] [0] [0] [1] [] []
  dot_S512x256_S256x6528_S512x6528_1_0_0_1_n_n_wf : DotDims.WF S512x256 S256x6528 S512x6528 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x51.size a ≤ S256x51.size a
  hwx0_7 : ∀ i : grid0.Coords, EltTy.bits .f32 = 32 ∨ (Rect.block (s := S256x51) S256x51.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S51.size a ≤ S51.size a
  hwx0_8 : ∀ i : grid0.Coords, EltTy.bits .f32 = 32 ∨ (Rect.block (s := S51) S51.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x51.size a ≤ S256x51.size a
  hwx0_9 : ∀ i : grid0.Coords, EltTy.bits .f32 = 32 ∨ (Rect.block (s := S256x51) S256x51.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S51.size a ≤ S51.size a
  hwx0_10 : ∀ i : grid0.Coords, EltTy.bits .f32 = 32 ∨ (Rect.block (s := S51) S51.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S51.size a ≤ S51.size a
  hwx0_11 : ∀ i : grid0.Coords, EltTy.bits .f32 = 32 ∨ (Rect.block (s := S51) S51.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x6528.size a ≤ S256x52224.size a
  hwx0_12 : ∀ i : grid0.Coords, EltTy.bits .bf16 = 32 ∨ (Rect.block (s := S256x52224) S256x6528.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x51.size a ≤ S1024x51.size a
  hwx0_13 : ∀ i : grid0.Coords, EltTy.bits .f32 = 32 ∨ (Rect.block (s := S1024x51) S128x51.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x128.size a ≤ S2048x1024.size a
  hwx0_14 : ∀ i : grid0.Coords, EltTy.bits .f32 = 32 ∨ (Rect.block (s := S2048x1024) S512x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x128.size a ≤ S2048x1024.size a
  hwx0_15 : ∀ i : grid0.Coords, EltTy.bits .f32 = 32 ∨ (Rect.block (s := S2048x1024) S512x128.size (cc0_transform_15 i) (hinb0_15 i)).WholeWords (EltTy.packing .f32)

variable [Facts₀]

def scatter_S2048x1000_S2048x200x2_S2048x200_n_01_01_2 : ScatterDims S2048x1000 S2048x200x2 S2048x200 where
  updateWindowDims := []
  insertedWindowDims := [0, 1]
  scatterDimsToOperandDims := [0, 1]
  indexVectorDim := 2
  wf := scatter_S2048x1000_S2048x200x2_S2048x200_n_01_01_2_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x51_S512x51_1_0_0_1_n_n : DotDims S512x256 S256x51 S512x51 where
  lhsContracting := [1]
  rhsContracting := [0]
  lhsNonContracting := [0]
  rhsNonContracting := [1]
  lhsBatch := []
  rhsBatch := []
  wf := dot_S512x256_S256x51_S512x51_1_0_0_1_n_n_wf
def dot_S512x256_S256x6528_S512x6528_1_0_0_1_n_n : DotDims S512x256 S256x6528 S512x6528 where
  lhsContracting := [1]
  rhsContracting := [0]
  lhsNonContracting := [0]
  rhsNonContracting := [1]
  lhsBatch := []
  rhsBatch := []
  wf := dot_S512x256_S256x6528_S512x6528_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256x51.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S51.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S256x51.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S51.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S51.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S256x6528.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v11) S128x51.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v31) S512x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v32) S512x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S1024x256 : Shape := ⟨2, ![1024, 256]⟩
abbrev S256 : Shape := ⟨1, ![256]⟩
abbrev S256x256 : Shape := ⟨2, ![256, 256]⟩
abbrev S256x51000 : Shape := ⟨2, ![256, 51000]⟩
abbrev S51000 : Shape := ⟨1, ![51000]⟩
abbrev S256x51 : Shape := ⟨2, ![256, 51]⟩
abbrev S51 : Shape := ⟨1, ![51]⟩
abbrev S2048x200 : Shape := ⟨2, ![2048, 200]⟩
abbrev S2048x256 : Shape := ⟨2, ![2048, 256]⟩
abbrev S1x256 : Shape := ⟨2, ![1, 256]⟩
abbrev S_ : Shape := ⟨0, ![]⟩
abbrev S2048x51000 : Shape := ⟨2, ![2048, 51000]⟩
abbrev S1x51000 : Shape := ⟨2, ![1, 51000]⟩
abbrev S2048x1000x51 : Shape := ⟨3, ![2048, 1000, 51]⟩
abbrev S2048x51 : Shape := ⟨2, ![2048, 51]⟩
abbrev S1x51 : Shape := ⟨2, ![1, 51]⟩
abbrev S2048x1x51 : Shape := ⟨3, ![2048, 1, 51]⟩
abbrev S2048x1000 : Shape := ⟨2, ![2048, 1000]⟩
abbrev S2048x1000x1 : Shape := ⟨3, ![2048, 1000, 1]⟩
abbrev S1x1x51 : Shape := ⟨3, ![1, 1, 51]⟩
abbrev S2048 : Shape := ⟨1, ![2048]⟩
abbrev S2048x1 : Shape := ⟨2, ![2048, 1]⟩
abbrev S2048x200x1 : Shape := ⟨3, ![2048, 200, 1]⟩
abbrev S2048x200x2 : Shape := ⟨3, ![2048, 200, 2]⟩

abbrev nBuf : Space → Nat
  | .hbm => 109
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x51000, .f32⟩
  | .hbm, ⟨6, _⟩ => ⟨S51000, .f32⟩
  | .hbm, ⟨7, _⟩ => ⟨S256x256, .f32⟩
  | .hbm, ⟨8, _⟩ => ⟨S256, .f32⟩
  | .hbm, ⟨9, _⟩ => ⟨S256x51, .f32⟩
  | .hbm, ⟨10, _⟩ => ⟨S51, .f32⟩
  | .hbm, ⟨11, _⟩ => ⟨S51, .f32⟩
  | .hbm, ⟨12, _⟩ => ⟨S2048x200, .i32⟩
  | .hbm, ⟨13, _⟩ => ⟨S2048x256, .f32⟩
  | .hbm, ⟨14, _⟩ => ⟨S1x256, .f32⟩
  | .hbm, ⟨15, _⟩ => ⟨S2048x256, .f32⟩
  | .hbm, ⟨16, _⟩ => ⟨S2048x256, .f32⟩
  | .hbm, ⟨17, _⟩ => ⟨S_, .f32⟩
  | .hbm, ⟨18, _⟩ => ⟨S2048x256, .f32⟩
  | .hbm, ⟨19, _⟩ => ⟨S2048x256, .f32⟩
  | .hbm, ⟨20, _⟩ => ⟨S2048x256, .f32⟩
  | .hbm, ⟨21, _⟩ => ⟨S1x256, .f32⟩
  | .hbm, ⟨22, _⟩ => ⟨S2048x256, .f32⟩
  | .hbm, ⟨23, _⟩ => ⟨S2048x256, .f32⟩
  | .hbm, ⟨24, _⟩ => ⟨S_, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S1x256, .f32⟩
  | .hbm, ⟨29, _⟩ => ⟨S2048x256, .f32⟩
  | .hbm, ⟨30, _⟩ => ⟨S2048x256, .f32⟩
  | .hbm, ⟨31, _⟩ => ⟨S_, .f32⟩
  | .hbm, ⟨32, _⟩ => ⟨S2048x256, .f32⟩
  | .hbm, ⟨33, _⟩ => ⟨S2048x256, .f32⟩
  | .hbm, ⟨34, _⟩ => ⟨S2048x51000, .f32⟩
  | .hbm, ⟨35, _⟩ => ⟨S1x51000, .f32⟩
  | .hbm, ⟨36, _⟩ => ⟨S2048x51000, .f32⟩
  | .hbm, ⟨37, _⟩ => ⟨S2048x51000, .f32⟩
  | .hbm, ⟨38, _⟩ => ⟨S2048x1000x51, .f32⟩
  | .hbm, ⟨39, _⟩ => ⟨S2048x51, .f32⟩
  | .hbm, ⟨40, _⟩ => ⟨S1x51, .f32⟩
  | .hbm, ⟨41, _⟩ => ⟨S2048x51, .f32⟩
  | .hbm, ⟨42, _⟩ => ⟨S2048x51, .f32⟩
  | .hbm, ⟨43, _⟩ => ⟨S2048x1x51, .f32⟩
  | .hbm, ⟨44, _⟩ => ⟨S2048x1000x51, .f32⟩
  | .hbm, ⟨45, _⟩ => ⟨S2048x1000x51, .f32⟩
  | .hbm, ⟨46, _⟩ => ⟨S_, .f32⟩
  | .hbm, ⟨47, _⟩ => ⟨S2048x51, .f32⟩
  | .hbm, ⟨48, _⟩ => ⟨S2048x1x51, .f32⟩
  | .hbm, ⟨49, _⟩ => ⟨S_, .f32⟩
  | .hbm, ⟨50, _⟩ => ⟨S2048x1x51, .f32⟩
  | .hbm, ⟨51, _⟩ => ⟨S2048x1x51, .f32⟩
  | .hbm, ⟨52, _⟩ => ⟨S2048x1000x51, .f32⟩
  | .hbm, ⟨53, _⟩ => ⟨S2048x1000x51, .f32⟩
  | .hbm, ⟨54, _⟩ => ⟨S_, .f32⟩
  | .hbm, ⟨55, _⟩ => ⟨S2048x1000, .f32⟩
  | .hbm, ⟨56, _⟩ => ⟨S_, .f32⟩
  | .hbm, ⟨57, _⟩ => ⟨S2048x1000, .f32⟩
  | .hbm, ⟨58, _⟩ => ⟨S2048x1000, .f32⟩
  | .hbm, ⟨59, _⟩ => ⟨S2048x1000x1, .f32⟩
  | .hbm, ⟨60, _⟩ => ⟨S2048x1000x51, .f32⟩
  | .hbm, ⟨61, _⟩ => ⟨S2048x1000x51, .f32⟩
  | .hbm, ⟨62, _⟩ => ⟨S2048x1000x51, .f32⟩
  | .hbm, ⟨63, _⟩ => ⟨S_, .f32⟩
  | .hbm, ⟨64, _⟩ => ⟨S2048x1000, .f32⟩
  | .hbm, ⟨65, _⟩ => ⟨S2048x1000x1, .f32⟩
  | .hbm, ⟨66, _⟩ => ⟨S2048x1000x51, .f32⟩
  | .hbm, ⟨67, _⟩ => ⟨S2048x1000x51, .f32⟩
  | .hbm, ⟨68, _⟩ => ⟨S_, .f32⟩
  | .hbm, ⟨69, _⟩ => ⟨S2048x1000x51, .f32⟩
  | .hbm, ⟨70, _⟩ => ⟨S2048x1000x51, .f32⟩
  | .hbm, ⟨71, _⟩ => ⟨S1x1x51, .f32⟩
  | .hbm, ⟨72, _⟩ => ⟨S2048x1000x51, .f32⟩
  | .hbm, ⟨73, _⟩ => ⟨S2048x1000x51, .f32⟩
  | .hbm, ⟨74, _⟩ => ⟨S_, .f32⟩
  | .hbm, ⟨75, _⟩ => ⟨S2048x1000, .f32⟩
  | .hbm, ⟨76, _⟩ => ⟨S_, .f32⟩
  | .hbm, ⟨77, _⟩ => ⟨S2048x1000, .f32⟩
  | .hbm, ⟨78, _⟩ => ⟨S2048, .i32⟩
  | .hbm, ⟨79, _⟩ => ⟨S2048x1, .i32⟩
  | .hbm, ⟨80, _⟩ => ⟨S_, .i32⟩
  | .hbm, ⟨81, _⟩ => ⟨S2048x1, .i32⟩
  | .hbm, ⟨82, _⟩ => ⟨S2048x1, .i1⟩
  | .hbm, ⟨83, _⟩ => ⟨S_, .i32⟩
  | .hbm, ⟨84, _⟩ => ⟨S2048x1, .i32⟩
  | .hbm, ⟨85, _⟩ => ⟨S2048x1, .i32⟩
  | .hbm, ⟨86, _⟩ => ⟨S2048x1, .i32⟩
  | .hbm, ⟨87, _⟩ => ⟨S_, .i32⟩
  | .hbm, ⟨88, _⟩ => ⟨S2048x200, .i32⟩
  | .hbm, ⟨89, _⟩ => ⟨S2048x200, .i1⟩
  | .hbm, ⟨90, _⟩ => ⟨S_, .i32⟩
  | .hbm, ⟨91, _⟩ => ⟨S2048x200, .i32⟩
  | .hbm, ⟨92, _⟩ => ⟨S2048x200, .i32⟩
  | .hbm, ⟨93, _⟩ => ⟨S2048x200, .i32⟩
  | .hbm, ⟨94, _⟩ => ⟨S2048x200, .i32⟩
  | .hbm, ⟨95, _⟩ => ⟨S2048x200x1, .i32⟩
  | .hbm, ⟨96, _⟩ => ⟨S2048x200x1, .i32⟩
  | .hbm, ⟨97, _⟩ => ⟨S2048x200x2, .i32⟩
  | .hbm, ⟨98, _⟩ => ⟨S_, .f32⟩
  | .hbm, ⟨99, _⟩ => ⟨S2048x200, .f32⟩
  | .hbm, ⟨100, _⟩ => ⟨S2048x1000, .f32⟩
  | .hbm, ⟨101, _⟩ => ⟨S2048x1000, .f32⟩
  | .hbm, ⟨102, _⟩ => ⟨S_, .f32⟩
  | .hbm, ⟨103, _⟩ => ⟨S2048x1000, .f32⟩
  | .hbm, ⟨104, _⟩ => ⟨S2048x1000, .i1⟩
  | .hbm, ⟨105, _⟩ => ⟨S_, .f32⟩
  | .hbm, ⟨106, _⟩ => ⟨S_, .f32⟩
  | .hbm, ⟨107, _⟩ => ⟨S2048x1000, .f32⟩
  | .hbm, ⟨108, _⟩ => ⟨S2048x1000, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_cst : Ref sig .tc := ⟨.hbm, 31, rfl⟩
abbrev main_call2_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_v27 : Ref sig .tc := ⟨.hbm, 47, rfl⟩
abbrev main_v28 : Ref sig .tc := ⟨.hbm, 48, rfl⟩
abbrev main_cst_0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_1 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c : Ref sig .tc := ⟨.hbm, 80, rfl⟩
abbrev main_v53 : Ref sig .tc := ⟨.hbm, 81, rfl⟩
abbrev main_v54 : Ref sig .tc := ⟨.hbm, 82, rfl⟩
abbrev main_c_7 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_8 : Ref sig .tc := ⟨.hbm, 87, rfl⟩
abbrev main_v58 : Ref sig .tc := ⟨.hbm, 88, rfl⟩
abbrev main_v59 : Ref sig .tc := ⟨.hbm, 89, rfl⟩
abbrev main_c_9 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_10 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_11 : Ref sig .tc := ⟨.hbm, 102, rfl⟩
abbrev main_v70 : Ref sig .tc := ⟨.hbm, 103, rfl⟩
abbrev main_v71 : Ref sig .tc := ⟨.hbm, 104, rfl⟩
abbrev main_cst_12 : Ref sig .tc := ⟨.hbm, 105, rfl⟩
abbrev main_call3_v0 : Ref sig .tc := ⟨.hbm, 106, rfl⟩
abbrev main_call3_v1 : Ref sig .tc := ⟨.hbm, 107, rfl⟩
abbrev main_v72 : Ref sig .tc := ⟨.hbm, 108, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  bcast_S51000_S1x51000_1 : S51000.BroadcastsInDim S1x51000 (![1] : Fin 1 → Fin S1x51000.rank)
  bcast_S1x51000_S2048x51000_0_1 : S1x51000.BroadcastsInDim S2048x51000 (![0, 1] : Fin 2 → Fin S2048x51000.rank)
  shapeCasts_S2048x51000_S2048x1000x51 : S2048x51000.ShapeCasts S2048x1000x51
  bcast_S51_S1x51_1 : S51.BroadcastsInDim S1x51 (![1] : Fin 1 → Fin S1x51.rank)
  bcast_S1x51_S2048x51_0_1 : S1x51.BroadcastsInDim S2048x51 (![0, 1] : Fin 2 → Fin S2048x51.rank)
  shapeCasts_S2048x51_S2048x1x51 : S2048x51.ShapeCasts S2048x1x51
  bcast_S2048x1x51_S2048x1000x51_0_1_2 : S2048x1x51.BroadcastsInDim S2048x1000x51 (![0, 1, 2] : Fin 3 → Fin S2048x1000x51.rank)
  reducesTo_S2048x1000x51_S2048x51_d1 : S2048x1000x51.ReducesTo [1] S2048x51
  h_S_ : 0 < S_.numel
  bcast_S2048x51_S2048x1x51_0_2 : S2048x51.BroadcastsInDim S2048x1x51 (![0, 2] : Fin 2 → Fin S2048x1x51.rank)
  bcast_S_S2048x1x51 : S_.BroadcastsInDim S2048x1x51 (![] : Fin 0 → Fin S2048x1x51.rank)
  reducesTo_S2048x1000x51_S2048x1000_d2 : S2048x1000x51.ReducesTo [2] S2048x1000
  bcast_S_S2048x1000 : S_.BroadcastsInDim S2048x1000 (![] : Fin 0 → Fin S2048x1000.rank)
  bcast_S2048x1000_S2048x1000x1_0_1 : S2048x1000.BroadcastsInDim S2048x1000x1 (![0, 1] : Fin 2 → Fin S2048x1000x1.rank)
  bcast_S2048x1000x1_S2048x1000x51_0_1_2 : S2048x1000x1.BroadcastsInDim S2048x1000x51 (![0, 1, 2] : Fin 3 → Fin S2048x1000x51.rank)
  bcast_S_S2048x1000x51 : S_.BroadcastsInDim S2048x1000x51 (![] : Fin 0 → Fin S2048x1000x51.rank)
  bcast_S51_S1x1x51_2 : S51.BroadcastsInDim S1x1x51 (![2] : Fin 1 → Fin S1x1x51.rank)
  bcast_S1x1x51_S2048x1000x51_0_1_2 : S1x1x51.BroadcastsInDim S2048x1000x51 (![0, 1, 2] : Fin 3 → Fin S2048x1000x51.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S_S2048x200 : S_.BroadcastsInDim S2048x200 (![] : Fin 0 → Fin S2048x200.rank)
  bcast_S2048x1_S2048x200_0_1 : S2048x1.BroadcastsInDim S2048x200 (![0, 1] : Fin 2 → Fin S2048x200.rank)
  bcast_S2048x200_S2048x200x1_0_1 : S2048x200.BroadcastsInDim S2048x200x1 (![0, 1] : Fin 2 → Fin S2048x200x1.rank)
  concatenates_S2048x200x1_S2048x200x1_S2048x200x2_d2 : Shape.Concatenates [S2048x200x1, S2048x200x1] S2048x200x2 2
  dot_S2048x1024_S1024x256_S2048x256_1_0_0_1_n_n_wf : DotDims.WF S2048x1024 S1024x256 S2048x256 [1] [0] [0] [1] [] []
  dot_S2048x256_S256x256_S2048x256_1_0_0_1_n_n_wf : DotDims.WF S2048x256 S256x256 S2048x256 [1] [0] [0] [1] [] []
  dot_S2048x256_S256x51000_S2048x51000_1_0_0_1_n_n_wf : DotDims.WF S2048x256 S256x51000 S2048x51000 [1] [0] [0] [1] [] []
  dot_S2048x256_S256x51_S2048x51_1_0_0_1_n_n_wf : DotDims.WF S2048x256 S256x51 S2048x51 [1] [0] [0] [1] [] []
  scatter_S2048x1000_S2048x200x2_S2048x200_n_01_01_2_wf : ScatterDims.WF S2048x1000 S2048x200x2 S2048x200 [] [0, 1] [0, 1] 2

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x51000_S2048x51000_1_0_0_1_n_n : DotDims S2048x256 S256x51000 S2048x51000 where
  lhsContracting := [1]
  rhsContracting := [0]
  lhsNonContracting := [0]
  rhsNonContracting := [1]
  lhsBatch := []
  rhsBatch := []
  wf := dot_S2048x256_S256x51000_S2048x51000_1_0_0_1_n_n_wf
def dot_S2048x256_S256x51_S2048x51_1_0_0_1_n_n : DotDims S2048x256 S256x51 S2048x51 where
  lhsContracting := [1]
  rhsContracting := [0]
  lhsNonContracting := [0]
  rhsNonContracting := [1]
  lhsBatch := []
  rhsBatch := []
  wf := dot_S2048x256_S256x51_S2048x51_1_0_0_1_n_n_wf
def scatter_S2048x1000_S2048x200x2_S2048x200_n_01_01_2 : ScatterDims S2048x1000 S2048x200x2 S2048x200 where
  updateWindowDims := []
  insertedWindowDims := [0, 1]
  scatterDimsToOperandDims := [0, 1]
  indexVectorDim := 2
  wf := scatter_S2048x1000_S2048x200x2_S2048x200_n_01_01_2_wf

class Facts : Prop extends Facts₀ where

variable [Facts]
-- ==== Proof.KernelPieces.lean ====
/-
  What one run of the kernel body leaves behind, as values. At the first action tile of a batch tile the body computes
  the advantage branch's hidden layer and the per-row bias from the input blocks, stores them in the two carried
  buffers, and computes the output tile from what it has just stored; at the other action tiles it computes the output
  tile from what the carried buffers already hold and leaves them untouched.
-/
import proofs.«128833_j24103356465503_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A later action tile: the output tile is computed from the carried hidden layer `xs0` and bias `xs1`, this tile's
    weights `x12` and bias `x13`, the support `x11` and this tile's mask `x14`. -/
theorem out_B (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x51 .f32) (harg9 : arg9.IsWhole) (arg10 : Memref sig .tc .vmem S51 .f32) (harg10 : arg10.IsWhole) (arg11 : Memref sig .tc .vmem S256x51 .f32) (harg11 : arg11.IsWhole) (arg12 : Memref sig .tc .vmem S51 .f32) (harg12 : arg12.IsWhole) (arg13 : Memref sig .tc .vmem S51 .f32) (harg13 : arg13.IsWhole) (arg14 : Memref sig .tc .vmem S256x6528 .bf16) (harg14 : arg14.IsWhole) (arg15 : Memref sig .tc .vmem S128x51 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x256 .f32) (harg18 : arg18.IsWhole) (arg19 : Memref sig .tc .vmem S512x51 .f32) (harg19 : arg19.IsWhole) (hc0 : ¬cond0_0 i)
    (x0 : Vec F S512x1024 .f32) (x1 : Vec F S1024x256 .f32) (x2 : Vec F S256 .f32) (x3 : Vec F S256x256 .f32) (x4 : Vec F S256 .f32) (x5 : Vec F S256x256 .f32) (x6 : Vec F S256 .f32) (x7 : Vec F S256x51 .f32) (x8 : Vec F S51 .f32) (x9 : Vec F S256x51 .f32) (x10 : Vec F S51 .f32) (x11 : Vec F S51 .f32) (x12 : Vec F S256x6528 .bf16) (x13 : Vec F S128x51 .f32) (x14 : Vec F S512x128 .f32) (xs0 : Vec F S512x256 .f32) (xs1 : Vec F S512x51 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1 = k0_pay1 (k0_pay8 xs0 xs1 x12 x13 x11) (k0_pay9 x14) := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S1024x256) hz2, View.ld_unit_zero (S := S256x256) hz2, View.ld_unit_zero (S := S256x51) hz2, View.ld_unit_zero (S := S256x6528) hz2, View.ld_unit_zero (S := S128x51) hz2, View.ld_unit_zero (S := S512x128) hz2, View.ld_unit_zero (S := S512x256) hz2, View.ld_unit_zero (S := S512x51) hz2, View.ld_unit_zero (S := S256) hz1, View.ld_unit_zero (S := S51) hz1]

/-- The first action tile: the output tile, computed from the hidden layer and bias the body has just stored. -/
theorem out_A (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x51 .f32) (harg9 : arg9.IsWhole) (arg10 : Memref sig .tc .vmem S51 .f32) (harg10 : arg10.IsWhole) (arg11 : Memref sig .tc .vmem S256x51 .f32) (harg11 : arg11.IsWhole) (arg12 : Memref sig .tc .vmem S51 .f32) (harg12 : arg12.IsWhole) (arg13 : Memref sig .tc .vmem S51 .f32) (harg13 : arg13.IsWhole) (arg14 : Memref sig .tc .vmem S256x6528 .bf16) (harg14 : arg14.IsWhole) (arg15 : Memref sig .tc .vmem S128x51 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x256 .f32) (harg18 : arg18.IsWhole) (arg19 : Memref sig .tc .vmem S512x51 .f32) (harg19 : arg19.IsWhole) (hc0 : cond0_0 i)
    (x0 : Vec F S512x1024 .f32) (x1 : Vec F S1024x256 .f32) (x2 : Vec F S256 .f32) (x3 : Vec F S256x256 .f32) (x4 : Vec F S256 .f32) (x5 : Vec F S256x256 .f32) (x6 : Vec F S256 .f32) (x7 : Vec F S256x51 .f32) (x8 : Vec F S51 .f32) (x9 : Vec F S256x51 .f32) (x10 : Vec F S51 .f32) (x11 : Vec F S51 .f32) (x12 : Vec F S256x6528 .bf16) (x13 : Vec F S128x51 .f32) (x14 : Vec F S512x128 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 = k0_pay1 (k0_pay8 (k0_pay6 (k0_pay3 x0 x1 x2 x3 x4)) (k0_pay7 (k0_pay4 x0 x1 x2 x5 x6 x7 x8) (k0_pay5 x0 x1 x2 x3 x4 x9) x10) x12 x13 x11) (k0_pay9 x14) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14)]
  unfold kernelRun0_A
  dsimp only
  sl_unfold_words
  rw [View.canon_unit_zero hz2, View.readCov_unit_zero (S := S512x256) _ hz2, View.readCov_unit_zero (S := S512x51) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S1024x256) hz2, View.ld_unit_zero (S := S256x256) hz2, View.ld_unit_zero (S := S256x51) hz2, View.ld_unit_zero (S := S256x6528) hz2, View.ld_unit_zero (S := S128x51) hz2, View.ld_unit_zero (S := S512x128) hz2, View.ld_unit_zero (S := S512x256) hz2, View.ld_unit_zero (S := S512x51) hz2, View.ld_unit_zero (S := S256) hz1, View.ld_unit_zero (S := S51) hz1]

/-- The first action tile: the advantage branch's hidden layer, stored in the first carried buffer. -/
theorem sout_A_0 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x51 .f32) (harg9 : arg9.IsWhole) (arg10 : Memref sig .tc .vmem S51 .f32) (harg10 : arg10.IsWhole) (arg11 : Memref sig .tc .vmem S256x51 .f32) (harg11 : arg11.IsWhole) (arg12 : Memref sig .tc .vmem S51 .f32) (harg12 : arg12.IsWhole) (arg13 : Memref sig .tc .vmem S51 .f32) (harg13 : arg13.IsWhole) (arg14 : Memref sig .tc .vmem S256x6528 .bf16) (harg14 : arg14.IsWhole) (arg15 : Memref sig .tc .vmem S128x51 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x256 .f32) (harg18 : arg18.IsWhole) (arg19 : Memref sig .tc .vmem S512x51 .f32) (harg19 : arg19.IsWhole) (hc0 : cond0_0 i)
    (x0 : Vec F S512x1024 .f32) (x1 : Vec F S1024x256 .f32) (x2 : Vec F S256 .f32) (x3 : Vec F S256x256 .f32) (x4 : Vec F S256 .f32) (x5 : Vec F S256x256 .f32) (x6 : Vec F S256 .f32) (x7 : Vec F S256x51 .f32) (x8 : Vec F S51 .f32) (x9 : Vec F S256x51 .f32) (x10 : Vec F S51 .f32) (x11 : Vec F S51 .f32) (x12 : Vec F S256x6528 .bf16) (x13 : Vec F S128x51 .f32) (x14 : Vec F S512x128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 = k0_pay6 (k0_pay3 x0 x1 x2 x3 x4) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S1024x256) hz2, View.ld_unit_zero (S := S256x256) hz2, View.ld_unit_zero (S := S256x51) hz2, View.ld_unit_zero (S := S256x6528) hz2, View.ld_unit_zero (S := S128x51) hz2, View.ld_unit_zero (S := S512x128) hz2, View.ld_unit_zero (S := S512x256) hz2, View.ld_unit_zero (S := S512x51) hz2, View.ld_unit_zero (S := S256) hz1, View.ld_unit_zero (S := S51) hz1]

/-- The first action tile: the per-row bias, stored in the second carried buffer. -/
theorem sout_A_1 (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x51 .f32) (harg9 : arg9.IsWhole) (arg10 : Memref sig .tc .vmem S51 .f32) (harg10 : arg10.IsWhole) (arg11 : Memref sig .tc .vmem S256x51 .f32) (harg11 : arg11.IsWhole) (arg12 : Memref sig .tc .vmem S51 .f32) (harg12 : arg12.IsWhole) (arg13 : Memref sig .tc .vmem S51 .f32) (harg13 : arg13.IsWhole) (arg14 : Memref sig .tc .vmem S256x6528 .bf16) (harg14 : arg14.IsWhole) (arg15 : Memref sig .tc .vmem S128x51 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x256 .f32) (harg18 : arg18.IsWhole) (arg19 : Memref sig .tc .vmem S512x51 .f32) (harg19 : arg19.IsWhole) (hc0 : cond0_0 i)
    (x0 : Vec F S512x1024 .f32) (x1 : Vec F S1024x256 .f32) (x2 : Vec F S256 .f32) (x3 : Vec F S256x256 .f32) (x4 : Vec F S256 .f32) (x5 : Vec F S256x256 .f32) (x6 : Vec F S256 .f32) (x7 : Vec F S256x51 .f32) (x8 : Vec F S51 .f32) (x9 : Vec F S256x51 .f32) (x10 : Vec F S51 .f32) (x11 : Vec F S51 .f32) (x12 : Vec F S256x6528 .bf16) (x13 : Vec F S128x51 .f32) (x14 : Vec F S512x128 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 = k0_pay7 (k0_pay4 x0 x1 x2 x5 x6 x7 x8) (k0_pay5 x0 x1 x2 x3 x4 x9) x10 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S1024x256) hz2, View.ld_unit_zero (S := S256x256) hz2, View.ld_unit_zero (S := S256x51) hz2, View.ld_unit_zero (S := S256x6528) hz2, View.ld_unit_zero (S := S128x51) hz2, View.ld_unit_zero (S := S512x128) hz2, View.ld_unit_zero (S := S512x256) hz2, View.ld_unit_zero (S := S512x51) hz2, View.ld_unit_zero (S := S256) hz1, View.ld_unit_zero (S := S51) hz1]

end Cert.KernelIdeal.Pieces

end
-- ==== Proof.KernelTile.lean ====
/-
  One grid point of the kernel, as values. A point `t` of the 4 × 8 grid handles batch tile `t / 8` (512 rows) and action
  tile `t % 8` (128 padded actions). What the output's staging buffer and the two carried buffers hold after the body at
  `t` is stated first through the body's arithmetic applied to the point's blocks, then entry by entry against the arrays
  the region finds.
-/
import proofs.«128833_j24103356465503_2_alg».proof.Proof.KernelPieces

set_option maxRecDepth 16384

noncomputable section

namespace Cert.KernelIdeal.Tile

open Cert.KernelIdeal Cert.KernelIdeal.Gen Cert.KernelIdeal.Pieces
open Idealize.ShloMosaic Idealize.ShloMosaic.TcCoe Idealize.SL.Sem

variable {F : FTy → Type} [FloatOps F]
variable (m : (ℓ : Loc nD τ sig) → Buf (Elt F) ℓ)

/-- The advantage branch's hidden layer of the point's batch tile, from the point's blocks. -/
def hidBlk (c : Dev nD) (t : Fin cfg0.N) : Vec F S512x256 .f32 :=
  k0_pay6 (k0_pay3 (iblk m c 0 t) (iblk m c 1 t) (iblk m c 2 t) (iblk m c 3 t) (iblk m c 4 t))

/-- The per-row bias of the point's batch tile, from the point's blocks. -/
def biasBlk (c : Dev nD) (t : Fin cfg0.N) : Vec F S512x51 .f32 :=
  k0_pay7 (k0_pay4 (iblk m c 0 t) (iblk m c 1 t) (iblk m c 2 t) (iblk m c 5 t) (iblk m c 6 t) (iblk m c 7 t) (iblk m c 8 t)) (k0_pay5 (iblk m c 0 t) (iblk m c 1 t) (iblk m c 2 t) (iblk m c 3 t) (iblk m c 4 t) (iblk m c 9 t)) (iblk m c 10 t)

/-- The output tile of the point, from a hidden layer `s0`, a bias `s1` and the point's blocks. -/
def outBlk (c : Dev nD) (t : Fin cfg0.N) (s0 : Vec F S512x256 .f32) (s1 : Vec F S512x51 .f32) : Vec F S512x128 .f32 :=
  k0_pay1 (k0_pay8 s0 s1 (iblk m c 12 t) (iblk m c 13 t) (iblk m c 11 t)) (k0_pay9 (iblk m c 14 t))

set_option backward.isDefEq.respectTransparency.types false in
set_option maxHeartbeats 2000000 in
/-- At the first action tile of a batch tile the body computes the hidden layer and the bias, keeps them, and computes
    the output tile from them. -/
theorem outs_A (c : Dev nD) (t : Fin cfg0.N) (h0 : t.val % 8 = 0) :
    outsAt0 m c t.val t.isLt = (outBlk m c t (hidBlk m c t) (biasBlk m c t), hidBlk m c t, biasBlk m c t) := by
  rw [outsAt0_A m c t h0]
  exact Prod.ext (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (Prod.ext (sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)))

set_option backward.isDefEq.respectTransparency.types false in
set_option maxHeartbeats 2000000 in
/-- At a later action tile the body computes the output tile from what the point before left in the carried buffers,
    and leaves them as they were. -/
theorem outs_B (c : Dev nD) (t : Fin cfg0.N) (h0 : ¬t.val % 8 = 0) :
    outsAt0 m c t.val t.isLt
      = (outBlk m c t (outsAt0 m c (t.val - 1) (Nat.lt_of_le_of_lt (Nat.sub_le _ _) t.isLt)).2.1
            (outsAt0 m c (t.val - 1) (Nat.lt_of_le_of_lt (Nat.sub_le _ _) t.isLt)).2.2,
          (outsAt0 m c (t.val - 1) (Nat.lt_of_le_of_lt (Nat.sub_le _ _) t.isLt)).2.1,
          (outsAt0 m c (t.val - 1) (Nat.lt_of_le_of_lt (Nat.sub_le _ _) t.isLt)).2.2) := by
  rw [outsAt0_B m c t h0]
  exact Prod.ext (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2) (Prod.ext rfl rfl)

end Cert.KernelIdeal.Tile

end
-- ==== Proof.KernelBlocks.lean ====
/-
  The point's blocks read against the arrays the region finds. Batch tile `t / 8` is rows `512 (t / 8) + r` of the
  input and of the mask; action tile `t % 8` is padded actions `128 (t % 8) + q`, that is columns
  `6528 (t % 8) + j` of the flattened padded weights; every other window's block is its whole array.
-/
import proofs.«128833_j24103356465503_2_alg».proof.Proof.Gen.KernelIdeal.Frame
import Idealize.ShloMosaic.Lib.Pipeline.Value
import Idealize.ShloMosaic.Lib.ValueIdx

set_option maxRecDepth 16384

noncomputable section

namespace Cert.KernelIdeal.Tile

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

theorem N32 : cfg0.N = 32 := N_0

/-- Row `r` of the point's batch tile, as a row of the whole input. -/
def row (t : Fin cfg0.N) (r : Fin 512) : Fin 2048 := ⟨512 * (t.val / 8) + r.val, by have := t.isLt; have := N32; omega⟩
/-- Action `q` of the point's action tile, as a padded action. -/
def acol (t : Fin cfg0.N) (q : Fin 128) : Fin 1024 := ⟨128 * (t.val % 8) + q.val, by omega⟩
/-- Column `j` of the point's block of the flattened padded weights, as a column of the whole matrix. -/
def wcol (t : Fin cfg0.N) (j : Fin 6528) : Fin 52224 := ⟨6528 * (t.val % 8) + j.val, by omega⟩

theorem idx0 : ∀ t : Fin cfg0.N, win0_0.index t 0 = t.val / 8 ∧ win0_0.index t 1 = 0 :=
  (by decide +kernel : ∀ t : Fin grid0.N, _)
theorem idx12 : ∀ t : Fin cfg0.N, win0_12.index t 0 = 0 ∧ win0_12.index t 1 = t.val % 8 :=
  (by decide +kernel : ∀ t : Fin grid0.N, _)
theorem idx13 : ∀ t : Fin cfg0.N, win0_13.index t 0 = t.val % 8 ∧ win0_13.index t 1 = 0 :=
  (by decide +kernel : ∀ t : Fin grid0.N, _)
theorem idx14 : ∀ t : Fin cfg0.N, win0_14.index t 0 = t.val / 8 ∧ win0_14.index t 1 = t.val % 8 :=
  (by decide +kernel : ∀ t : Fin grid0.N, _)

theorem blk0 (c : Dev nD) (t : Fin cfg0.N) (r : Fin 512) (k : Fin 1024) :
    (iblk m c 0 t : Vec F S512x1024 .f32) (ix2 r k) = V m c main_arg0 (ix2 (row t r) k) := by
  unfold iblk
  rw [View.read_apply]
  show V m c main_arg0 _ = V m c main_arg0 _
  refine congrArg (V m c main_arg0) (funext fun a => Fin.ext ?_)
  match a with
  | ⟨0, _⟩ => show win0_0.index t 0 * 512 + 1 * r.val = 512 * (t.val / 8) + r.val; rw [(idx0 t).1]; omega
  | ⟨1, _⟩ => show win0_0.index t 1 * 1024 + 1 * k.val = k.val; rw [(idx0 t).2]; omega

theorem blk1 (c : Dev nD) (t : Fin cfg0.N) (p : Fin 1024) (q : Fin 256) :
    (iblk m c 1 t : Vec F S1024x256 .f32) (ix2 p q) = V m c main_arg1 (ix2 p q) := by
  unfold iblk
  rw [View.read_apply]
  show V m c main_arg1 _ = V m c main_arg1 _
  refine congrArg (V m c main_arg1) (funext fun a => Fin.ext ?_)
  match a with
  | ⟨0, _⟩ => show win0_1.index t 0 * 1024 + 1 * p.val = p.val; rw [show win0_1.index t 0 = 0 from rfl]; omega
  | ⟨1, _⟩ => show win0_1.index t 1 * 256 + 1 * q.val = q.val; rw [show win0_1.index t 1 = 0 from rfl]; omega

theorem blk2 (c : Dev nD) (t : Fin cfg0.N) (p : Fin 256) :
    (iblk m c 2 t : Vec F S256 .f32) (ix1 p) = V m c main_arg2 (ix1 p) := by
  unfold iblk
  rw [View.read_apply]
  show V m c main_arg2 _ = V m c main_arg2 _
  refine congrArg (V m c main_arg2) (funext fun a => Fin.ext ?_)
  match a with
  | ⟨0, _⟩ => show win0_2.index t 0 * 256 + 1 * p.val = p.val; rw [show win0_2.index t 0 = 0 from rfl]; omega

theorem blk3 (c : Dev nD) (t : Fin cfg0.N) (p : Fin 256) (q : Fin 256) :
    (iblk m c 3 t : Vec F S256x256 .f32) (ix2 p q) = V m c main_arg3 (ix2 p q) := by
  unfold iblk
  rw [View.read_apply]
  show V m c main_arg3 _ = V m c main_arg3 _
  refine congrArg (V m c main_arg3) (funext fun a => Fin.ext ?_)
  match a with
  | ⟨0, _⟩ => show win0_3.index t 0 * 256 + 1 * p.val = p.val; rw [show win0_3.index t 0 = 0 from rfl]; omega
  | ⟨1, _⟩ => show win0_3.index t 1 * 256 + 1 * q.val = q.val; rw [show win0_3.index t 1 = 0 from rfl]; omega

theorem blk4 (c : Dev nD) (t : Fin cfg0.N) (p : Fin 256) :
    (iblk m c 4 t : Vec F S256 .f32) (ix1 p) = V m c main_arg4 (ix1 p) := by
  unfold iblk
  rw [View.read_apply]
  show V m c main_arg4 _ = V m c main_arg4 _
  refine congrArg (V m c main_arg4) (funext fun a => Fin.ext ?_)
  match a with
  | ⟨0, _⟩ => show win0_4.index t 0 * 256 + 1 * p.val = p.val; rw [show win0_4.index t 0 = 0 from rfl]; omega

theorem blk5 (c : Dev nD) (t : Fin cfg0.N) (p : Fin 256) (q : Fin 256) :
    (iblk m c 5 t : Vec F S256x256 .f32) (ix2 p q) = V m c main_arg7 (ix2 p q) := by
  unfold iblk
  rw [View.read_apply]
  show V m c main_arg7 _ = V m c main_arg7 _
  refine congrArg (V m c main_arg7) (funext fun a => Fin.ext ?_)
  match a with
  | ⟨0, _⟩ => show win0_5.index t 0 * 256 + 1 * p.val = p.val; rw [show win0_5.index t 0 = 0 from rfl]; omega
  | ⟨1, _⟩ => show win0_5.index t 1 * 256 + 1 * q.val = q.val; rw [show win0_5.index t 1 = 0 from rfl]; omega

theorem blk6 (c : Dev nD) (t : Fin cfg0.N) (p : Fin 256) :
    (iblk m c 6 t : Vec F S256 .f32) (ix1 p) = V m c main_arg8 (ix1 p) := by
  unfold iblk
  rw [View.read_apply]
  show V m c main_arg8 _ = V m c main_arg8 _
  refine congrArg (V m c main_arg8) (funext fun a => Fin.ext ?_)
  match a with
  | ⟨0, _⟩ => show win0_6.index t 0 * 256 + 1 * p.val = p.val; rw [show win0_6.index t 0 = 0 from rfl]; omega

theorem blk7 (c : Dev nD) (t : Fin cfg0.N) (p : Fin 256) (q : Fin 51) :
    (iblk m c 7 t : Vec F S256x51 .f32) (ix2 p q) = V m c main_arg9 (ix2 p q) := by
  unfold iblk
  rw [View.read_apply]
  show V m c main_arg9 _ = V m c main_arg9 _
  refine congrArg (V m c main_arg9) (funext fun a => Fin.ext ?_)
  match a with
  | ⟨0, _⟩ => show win0_7.index t 0 * 256 + 1 * p.val = p.val; rw [show win0_7.index t 0 = 0 from rfl]; omega
  | ⟨1, _⟩ => show win0_7.index t 1 * 51 + 1 * q.val = q.val; rw [show win0_7.index t 1 = 0 from rfl]; omega

theorem blk8 (c : Dev nD) (t : Fin cfg0.N) (p : Fin 51) :
    (iblk m c 8 t : Vec F S51 .f32) (ix1 p) = V m c main_arg10 (ix1 p) := by
  unfold iblk
  rw [View.read_apply]
  show V m c main_arg10 _ = V m c main_arg10 _
  refine congrArg (V m c main_arg10) (funext fun a => Fin.ext ?_)
  match a with
  | ⟨0, _⟩ => show win0_8.index t 0 * 51 + 1 * p.val = p.val; rw [show win0_8.index t 0 = 0 from rfl]; omega

theorem blk9 (c : Dev nD) (t : Fin cfg0.N) (p : Fin 256) (q : Fin 51) :
    (iblk m c 9 t : Vec F S256x51 .f32) (ix2 p q) = V m c main_v4 (ix2 p q) := by
  unfold iblk
  rw [View.read_apply]
  show V m c main_v4 _ = V m c main_v4 _
  refine congrArg (V m c main_v4) (funext fun a => Fin.ext ?_)
  match a with
  | ⟨0, _⟩ => show win0_9.index t 0 * 256 + 1 * p.val = p.val; rw [show win0_9.index t 0 = 0 from rfl]; omega
  | ⟨1, _⟩ => show win0_9.index t 1 * 51 + 1 * q.val = q.val; rw [show win0_9.index t 1 = 0 from rfl]; omega

theorem blk10 (c : Dev nD) (t : Fin cfg0.N) (p : Fin 51) :
    (iblk m c 10 t : Vec F S51 .f32) (ix1 p) = V m c main_v7 (ix1 p) := by
  unfold iblk
  rw [View.read_apply]
  show V m c main_v7 _ = V m c main_v7 _
  refine congrArg (V m c main_v7) (funext fun a => Fin.ext ?_)
  match a with
  | ⟨0, _⟩ => show win0_10.index t 0 * 51 + 1 * p.val = p.val; rw [show win0_10.index t 0 = 0 from rfl]; omega

theorem blk11 (c : Dev nD) (t : Fin cfg0.N) (p : Fin 51) :
    (iblk m c 11 t : Vec F S51 .f32) (ix1 p) = V m c main_arg11 (ix1 p) := by
  unfold iblk
  rw [View.read_apply]
  show V m c main_arg11 _ = V m c main_arg11 _
  refine congrArg (V m c main_arg11) (funext fun a => Fin.ext ?_)
  match a with
  | ⟨0, _⟩ => show win0_11.index t 0 * 51 + 1 * p.val = p.val; rw [show win0_11.index t 0 = 0 from rfl]; omega

theorem blk12 (c : Dev nD) (t : Fin cfg0.N) (h : Fin 256) (j : Fin 6528) :
    (iblk m c 12 t : Vec F S256x6528 .bf16) (ix2 h j) = V m c main_v10 (ix2 h (wcol t j)) := by
  unfold iblk
  rw [View.read_apply]
  show V m c main_v10 _ = V m c main_v10 _
  refine congrArg (V m c main_v10) (funext fun a => Fin.ext ?_)
  match a with
  | ⟨0, _⟩ => show win0_12.index t 0 * 256 + 1 * h.val = h.val; rw [(idx12 t).1]; omega
  | ⟨1, _⟩ => show win0_12.index t 1 * 6528 + 1 * j.val = 6528 * (t.val % 8) + j.val; rw [(idx12 t).2]; omega

theorem blk13 (c : Dev nD) (t : Fin cfg0.N) (q : Fin 128) (k : Fin 51) :
    (iblk m c 13 t : Vec F S128x51 .f32) (ix2 q k) = V m c main_v11 (ix2 (acol t q) k) := by
  unfold iblk
  rw [View.read_apply]
  show V m c main_v11 _ = V m c main_v11 _
  refine congrArg (V m c main_v11) (funext fun a => Fin.ext ?_)
  match a with
  | ⟨0, _⟩ => show win0_13.index t 0 * 128 + 1 * q.val = 128 * (t.val % 8) + q.val; rw [(idx13 t).1]; omega
  | ⟨1, _⟩ => show win0_13.index t 1 * 51 + 1 * k.val = k.val; rw [(idx13 t).2]; omega

theorem blk14 (c : Dev nD) (t : Fin cfg0.N) (r : Fin 512) (q : Fin 128) :
    (iblk m c 14 t : Vec F S512x128 .f32) (ix2 r q) = V m c main_v31 (ix2 (row t r) (acol t q)) := by
  unfold iblk
  rw [View.read_apply]
  show V m c main_v31 _ = V m c main_v31 _
  refine congrArg (V m c main_v31) (funext fun a => Fin.ext ?_)
  match a with
  | ⟨0, _⟩ => show win0_14.index t 0 * 512 + 1 * r.val = 512 * (t.val / 8) + r.val; rw [(idx14 t).1]; omega
  | ⟨1, _⟩ => show win0_14.index t 1 * 128 + 1 * q.val = 128 * (t.val % 8) + q.val; rw [(idx14 t).2]; omega

end Cert.KernelIdeal.Tile

end
-- ==== Proof.Spec.lean ====
/-
  The network's forward pass, entry by entry, on the extended reals.

  One input row `x` (1024 features) passes through a shared hidden layer, then an advantage branch and a value
  branch; the advantage head gives, for each of the 1000 actions `a`, 51 logits `adv a k`; the value head gives 51 logits
  `val k`. The dueling combination is `q a k = val k + adv a k - mean_a' adv a' k`. Each action's 51 logits go through a
  softmax over `k`, clamped from below, and are averaged against the support `vr`; the result is multiplied by the
  legal-move mask, and an exact zero becomes minus infinity.

  Two groupings of `q` are stated: the reference's, which averages the advantage logits themselves, and the
  kernel's, which averages the weights and the bias of the advantage head first (the mean is linear). They agree when
  every entry is a real number: `Algebra.lean`.
-/
import Idealize.ShloMosaic.PureOps.Ideal
import Idealize.ShloMosaic.Lib.ValueIdx

noncomputable section

namespace Cert.Spec

open Idealize.ShloMosaic

/-- The float zero, as both programs write it. -/
abbrev Z : EReal := Ideal.ofBits .f32 0x00000000#32
/-- Minus infinity, as both programs write it. -/
abbrev NI : EReal := Ideal.ofBits .f32 0xFF800000#32
/-- The lower clamp of a probability (the float nearest 1e-5), as both programs write it. -/
abbrev EPS : EReal := Ideal.ofBits .f32 0x3727C5AC#32
/-- The number of actions, 1000, as a float. -/
abbrev K1000 : EReal := Ideal.ofBits .f32 0x447A0000#32

/-- An affine layer's entry `j`: `∑ k, x k * w k j + b j`. -/
def lin {n p : ℕ} (x : Fin n → EReal) (w : Fin n → Fin p → EReal) (b : Fin p → EReal) (j : Fin p) : EReal :=
  (∑ k : Fin n, x k * w k j) + b j

/-- An affine layer followed by the rectifier. -/
def rlin {n p : ℕ} (x : Fin n → EReal) (w : Fin n → Fin p → EReal) (b : Fin p → EReal) (j : Fin p) : EReal :=
  max (lin x w b j) Z

/-- The expected support value under the clamped softmax of one action's 51 logits `q`: with `M` the row maximum (folded
    from minus infinity) and `S = ∑ k, exp (q k - M)`, it is `∑ k, max (exp (q k - M) / S) EPS * v k`. -/
def qval (q v : Fin 51 → EReal) : EReal :=
  ∑ k : Fin 51, max (Ideal.div (Ideal.exp (q k - max NI ((Finset.univ : Finset (Fin 51)).fold max NI q)))
      (∑ k' : Fin 51, Ideal.exp (q k' - max NI ((Finset.univ : Finset (Fin 51)).fold max NI q)))) EPS * v k

/-- An exact zero becomes minus infinity; anything else is kept. -/
def sel (y : EReal) : EReal :=
  Scalar.select (FloatOps.cmpf (F := Ideal) (φ := .f32) .oeq y Z) NI y

/-- One output entry from an action's logits `q`, the support `v` and the mask entry `mk`. -/
def out (q v : Fin 51 → EReal) (mk : EReal) : EReal := sel (qval q v * mk)

/-- The network's parameters, by coordinates. `wao h a k` is the advantage head's weight from hidden unit `h` to
    bin `k` of action `a` (column `51 a + k` of the [256, 51000] matrix). -/
structure Net where
  win : Fin 1024 → Fin 256 → EReal
  bin : Fin 256 → EReal
  wah : Fin 256 → Fin 256 → EReal
  bah : Fin 256 → EReal
  wao : Fin 256 → Fin 1000 → Fin 51 → EReal
  bao : Fin 1000 → Fin 51 → EReal
  wvh : Fin 256 → Fin 256 → EReal
  bvh : Fin 256 → EReal
  wvo : Fin 256 → Fin 51 → EReal
  bvo : Fin 51 → EReal
  vr : Fin 51 → EReal

/-- Column `51 a + k` of the advantage head. -/
def col (a : Fin 1000) (k : Fin 51) : Fin 51000 := ⟨51 * a.val + k.val, by omega⟩

/-- The parameters read out of the eleven parameter arrays (in the programs' argument order, after the input `x`). -/
def netOf (x1 : (⟨2, ![1024, 256]⟩ : Shape).Idx → EReal) (x2 : (⟨1, ![256]⟩ : Shape).Idx → EReal)
    (x3 : (⟨2, ![256, 256]⟩ : Shape).Idx → EReal) (x4 : (⟨1, ![256]⟩ : Shape).Idx → EReal)
    (x5 : (⟨2, ![256, 51000]⟩ : Shape).Idx → EReal) (x6 : (⟨1, ![51000]⟩ : Shape).Idx → EReal)
    (x7 : (⟨2, ![256, 256]⟩ : Shape).Idx → EReal) (x8 : (⟨1, ![256]⟩ : Shape).Idx → EReal)
    (x9 : (⟨2, ![256, 51]⟩ : Shape).Idx → EReal) (x10 : (⟨1, ![51]⟩ : Shape).Idx → EReal)
    (x11 : (⟨1, ![51]⟩ : Shape).Idx → EReal) : Net where
  win k j := x1 (ValueIdx.ix2 k j)
  bin j := x2 (ValueIdx.ix1 j)
  wah k j := x3 (ValueIdx.ix2 k j)
  bah j := x4 (ValueIdx.ix1 j)
  wao h a k := x5 (ValueIdx.ix2 h (col a k))
  bao a k := x6 (ValueIdx.ix1 (col a k))
  wvh k j := x7 (ValueIdx.ix2 k j)
  bvh j := x8 (ValueIdx.ix1 j)
  wvo k j := x9 (ValueIdx.ix2 k j)
  bvo j := x10 (ValueIdx.ix1 j)
  vr k := x11 (ValueIdx.ix1 k)

variable (N : Net) (x : Fin 1024 → EReal)

/-- The shared hidden layer. -/
def hid : Fin 256 → EReal := rlin x N.win N.bin
/-- The advantage branch's hidden layer. -/
def advh : Fin 256 → EReal := rlin (hid N x) N.wah N.bah
/-- The value branch's hidden layer. -/
def valh : Fin 256 → EReal := rlin (hid N x) N.wvh N.bvh
/-- The value head's 51 logits. -/
def val : Fin 51 → EReal := lin (valh N x) N.wvo N.bvo
/-- The advantage head's logit for action `a`, bin `k`. -/
def adv (a : Fin 1000) (k : Fin 51) : EReal := (∑ h : Fin 256, advh N x h * N.wao h a k) + N.bao a k

/-- The reference's grouping: `(val + adv) - (∑ a', adv a') / 1000`. -/
def qRef (a : Fin 1000) (k : Fin 51) : EReal :=
  (val N x k + adv N x a k) - Ideal.div (∑ a' : Fin 1000, adv N x a' k) K1000

/-- The advantage head's weights averaged over the actions. -/
def wmean (h : Fin 256) (k : Fin 51) : EReal := Ideal.div (∑ a : Fin 1000, N.wao h a k) K1000
/-- The advantage head's bias averaged over the actions. -/
def bmean (k : Fin 51) : EReal := Ideal.div (∑ a : Fin 1000, N.bao a k) K1000
/-- What the kernel carries per row: the value logits minus the averaged advantage logits, the average taken through
    the averaged weights. -/
def bias (k : Fin 51) : EReal := val N x k - ((∑ h : Fin 256, advh N x h * wmean N h k) + bmean N k)

/-- The kernel's grouping: `adv + (val - mean)`, the mean through the averaged weights. -/
def qKer (a : Fin 1000) (k : Fin 51) : EReal := adv N x a k + bias N x k

end Cert.Spec

end
-- ==== Proof.LibPlainProduct.lean ====
/-
  The plain matrix product at the exact extended reals, read at an index given by coordinates.
  For dimension numbers that contract the left operand's axis 1 with the right operand's axis 0 (no batch axes),
  the contraction sum of an `[M, K]` by `[K, N]` product at `(p, q)` is `∑ k, l (p, k) * r (k, q)` over the `K`
  coordinates of the shared axis — for the matrix unit's product into a zero accumulator and for the host's
  `dot_general` alike. General in the three extents and in the operands' formats.
-/
import Idealize.ShloMosaic.Lib.ValueIdx
import Idealize.ShloMosaic.PureOps.Ideal.Laws

namespace Idealize.ShloMosaic.ValueIdx

open Idealize.ShloMosaic

/-- The left operand's row coordinate of a plain product is the result's row, whatever the contraction index. -/
theorem plain_lhsIdx_row {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).lhsIdx j k 0).val = (j 0).val := by
  unfold DotDims.lhsIdx
  rw [dif_neg List.not_mem_nil, dif_pos (List.mem_singleton.mpr rfl)]
  rfl

/-- The right operand's column coordinate of a plain product is the result's column, whatever the contraction index. -/
theorem plain_rhsIdx_col {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).rhsIdx j k 1).val = (j 1).val := by
  unfold DotDims.rhsIdx
  rw [dif_neg List.not_mem_nil, dif_pos (List.mem_singleton.mpr rfl)]
  rfl

/-- The contraction sum of a plain product, re-indexed by the shared axis's coordinate. -/
theorem plain_contr_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => exact plain_lhsIdx_row wf _ _
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => exact plain_rhsIdx_col wf _ _)
  rw [el, er]

/-- The matrix unit's plain product into a zero accumulator, at `(p, q)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact plain_contr_sum d hlc hrc hln hrn hlb hrb l r p q

/-- The host's plain `dot_general`, at `(p, q)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact plain_contr_sum d hlc hrc hln hrn hlb hrb l r p q

end Idealize.ShloMosaic.ValueIdx
-- ==== Proof.Payload.lean ====
/-
  The kernel body's arithmetic, read entry by entry on the extended reals.

  Each value the body computes between its loads and its stores is a composition of matrix products, row
  broadcasts, pointwise operations and reductions along the last axis. Here each of them is read at an index
  given by coordinates and identified with the corresponding expression of the specification: the affine
  layers with and without rectifier, the per-row bias the body keeps, the expected support value under the
  clamped softmax of one action's logits, and the final replacement of an exact zero by minus infinity.
-/
import proofs.«128833_j24103356465503_2_alg».proof.Proof.Gen.KernelIdeal.Skeleton
import proofs.«128833_j24103356465503_2_alg».proof.Proof.Spec
import proofs.«128833_j24103356465503_2_alg».proof.Proof.LibPlainProduct
import Idealize.ShloMosaic.Lib.ValueLayout
import Idealize.ShloMosaic.PureOps.Ideal.Laws

noncomputable section

namespace Cert.Payload

open Cert.KernelIdeal Cert.KernelIdeal.Gen Idealize.ShloMosaic Idealize.ShloMosaic.ValueIdx

/-! ## The casts to the same shape, the bias, the final select -/

/-- A cast of the advantage branch's hidden layer to its own shape changes nothing. -/
theorem pay6_eq (v : FVec Ideal S512x256 .f32) : k0_pay6 (F := Ideal) v = v := by
  unfold k0_pay6
  exact shapeCast_self v _

/-- A cast of the mask tile to its own shape changes nothing. -/
theorem pay9_eq (v : Vec Ideal S512x128 .f32) : k0_pay9 (F := Ideal) v = v := by
  unfold k0_pay9
  exact shapeCast_self v _

/-- The per-row bias: the value logits minus (the averaged advantage logits plus the averaged bias). -/
theorem pay7_apply (v74 v77 : FVec Ideal S512x51 .f32) (v78 : Vec Ideal S51 .f32) (r : Fin 512) (k : Fin 51) :
    k0_pay7 (F := Ideal) v74 v77 v78 (ix2 r k) = v74 (ix2 r k) - (v77 (ix2 r k) + v78 (ix1 k)) := by
  unfold k0_pay7
  rw [shapeCast_self, subf_apply, addf_apply, broadcastTo_1b_ab_apply, shapeCast_a_1a_apply, shapeCast_self]

/-- The final select: the masked value, an exact zero replaced by minus infinity. -/
theorem pay1_apply (v35 v37 : FVec Ideal S512x128 .f32) (r : Fin 512) (c : Fin 128) :
    k0_pay1 (F := Ideal) v35 v37 (ix2 r c) = Cert.Spec.sel (v35 (ix2 r c) * v37 (ix2 r c)) := rfl

/-! ## The affine layers -/

/-- The shared hidden layer: the matrix product with the input weights, the bias row added, the rectifier. -/
theorem pay2_apply (x0 : Vec Ideal S512x1024 .f32) (x1 : Vec Ideal S1024x256 .f32) (x2 : Vec Ideal S256 .f32)
    (r : Fin 512) (j : Fin 256) :
    k0_pay2 (F := Ideal) x0 x1 x2 (ix2 r j)
      = Cert.Spec.rlin (fun k => x0 (ix2 r k)) (fun k j => x1 (ix2 k j)) (fun j => x2 (ix1 j)) j := by
  unfold k0_pay2
  rw [maximumf_apply, addf_apply, broadcastTo_1b_ab_apply, shapeCast_a_1a_apply]
  unfold matmul
  rw [matmul_zero_plain_apply _ rfl rfl rfl rfl rfl rfl]
  rfl

/-- The advantage branch's hidden layer: the same on the shared hidden layer. -/
theorem pay3_apply (x0 : Vec Ideal S512x1024 .f32) (x1 : Vec Ideal S1024x256 .f32) (x2 : Vec Ideal S256 .f32)
    (x3 : Vec Ideal S256x256 .f32) (x4 : Vec Ideal S256 .f32) (r : Fin 512) (j : Fin 256) :
    k0_pay3 (F := Ideal) x0 x1 x2 x3 x4 (ix2 r j)
      = Cert.Spec.rlin (Cert.Spec.rlin (fun k => x0 (ix2 r k)) (fun k j => x1 (ix2 k j)) (fun j => x2 (ix1 j)))
          (fun k j => x3 (ix2 k j)) (fun j => x4 (ix1 j)) j := by
  unfold k0_pay3
  rw [maximumf_apply, addf_apply, broadcastTo_1b_ab_apply, shapeCast_a_1a_apply]
  unfold matmul
  rw [matmul_zero_plain_apply _ rfl rfl rfl rfl rfl rfl]
  simp only [pay2_apply]
  rfl

/-- The averaged advantage logits without their bias: the advantage branch's hidden layer times the averaged weights. -/
theorem pay5_apply (x0 : Vec Ideal S512x1024 .f32) (x1 : Vec Ideal S1024x256 .f32) (x2 : Vec Ideal S256 .f32)
    (x3 : Vec Ideal S256x256 .f32) (x4 : Vec Ideal S256 .f32) (x9 : Vec Ideal S256x51 .f32) (r : Fin 512) (k : Fin 51) :
    k0_pay5 (F := Ideal) x0 x1 x2 x3 x4 x9 (ix2 r k)
      = ∑ h : Fin 256, Cert.Spec.rlin (Cert.Spec.rlin (fun k => x0 (ix2 r k)) (fun k j => x1 (ix2 k j)) (fun j => x2 (ix1 j)))
          (fun k j => x3 (ix2 k j)) (fun j => x4 (ix1 j)) h * x9 (ix2 h k) := by
  unfold k0_pay5
  unfold matmul
  rw [matmul_zero_plain_apply _ rfl rfl rfl rfl rfl rfl, shapeCast_self]
  simp only [pay3_apply]

/-- The value logits: the value branch's hidden layer through the value head. -/
theorem pay4_apply (x0 : Vec Ideal S512x1024 .f32) (x1 : Vec Ideal S1024x256 .f32) (x2 : Vec Ideal S256 .f32)
    (x5 : Vec Ideal S256x256 .f32) (x6 : Vec Ideal S256 .f32) (x7 : Vec Ideal S256x51 .f32) (x8 : Vec Ideal S51 .f32)
    (r : Fin 512) (k : Fin 51) :
    k0_pay4 (F := Ideal) x0 x1 x2 x5 x6 x7 x8 (ix2 r k)
      = Cert.Spec.lin (Cert.Spec.rlin (Cert.Spec.rlin (fun k => x0 (ix2 r k)) (fun k j => x1 (ix2 k j)) (fun j => x2 (ix1 j)))
          (fun k j => x5 (ix2 k j)) (fun j => x6 (ix1 j))) (fun h k => x7 (ix2 h k)) (fun k => x8 (ix1 k)) k := by
  unfold k0_pay4
  rw [addf_apply, broadcastTo_1b_ab_apply, shapeCast_a_1a_apply]
  unfold matmul
  rw [matmul_zero_plain_apply _ rfl rfl rfl rfl rfl rfl]
  -- the value branch's hidden layer is, operation for operation, the advantage branch's on other weights
  exact congrArg (· + x8 (ix1 k)) (Finset.sum_congr rfl fun h _ => congrArg (· * x7 (ix2 h k)) (pay3_apply x0 x1 x2 x5 x6 r h))

/-! ## Layout operations of the softmax stage, read at coordinates -/

/-- The [512, 6528] product regrouped as [512, 128, 51]: entry (r, c, k) is column 51 c + k. -/
theorem cast_cols_apply {α : Type} (x : S512x6528.Idx → α) (h : S512x6528.ShapeCasts S512x128x51)
    (r : Fin 512) (c : Fin 128) (k : Fin 51) :
    shapeCast S512x128x51 x h (ix3 r c k) = x (ix2 r (⟨51 * c.val + k.val, by omega⟩ : Fin 6528)) :=
  shapeCast_apply x h _ _ (by
    rw [Shape.rowMajor_val_two, Shape.rowMajor_val_three]
    show r.val * 6528 + (51 * c.val + k.val) = (r.val * 128 + c.val) * 51 + k.val
    omega)

/-- A [1, 128, 51] array repeated along a new leading axis of 512. -/
theorem bcast_1bn_apply {α : Type} (x : S1x128x51.Idx → α) (h : S1x128x51.Broadcasts S512x128x51)
    (r : Fin 512) (c : Fin 128) (k : Fin 51) :
    broadcastTo S512x128x51 x h (ix3 r c k) = x (ix3 (0 : Fin 1) c k) :=
  broadcastTo_apply x h _ _ fun a => match a with
    | ⟨0, _⟩ => rfl
    | ⟨1, _⟩ => rfl
    | ⟨2, _⟩ => rfl

/-- A [512, 51] array given a unit middle axis. -/
theorem cast_an_a1n_apply {α : Type} (x : S512x51.Idx → α) (h : S512x51.ShapeCasts S512x1x51)
    (r : Fin 512) (u : Fin 1) (k : Fin 51) :
    shapeCast S512x1x51 x h (ix3 r u k) = x (ix2 r k) :=
  shapeCast_apply x h _ _ (by
    have hu : u.val = 0 := by omega
    rw [Shape.rowMajor_val_two, Shape.rowMajor_val_three]
    show r.val * 51 + k.val = (r.val * 1 + u.val) * 51 + k.val
    omega)

/-- A [512, 1, 51] array repeated along its middle axis, 128 times. -/
theorem bcast_a1n_apply {α : Type} (x : S512x1x51.Idx → α) (h : S512x1x51.Broadcasts S512x128x51)
    (r : Fin 512) (c : Fin 128) (k : Fin 51) :
    broadcastTo S512x128x51 x h (ix3 r c k) = x (ix3 r (0 : Fin 1) k) :=
  broadcastTo_apply x h _ _ fun a => match a with
    | ⟨0, _⟩ => rfl
    | ⟨1, _⟩ => rfl
    | ⟨2, _⟩ => rfl

/-- A [512, 128] array given a unit last axis. -/
theorem cast_ab_ab1_apply {α : Type} (x : S512x128.Idx → α) (h : S512x128.ShapeCasts S512x128x1)
    (r : Fin 512) (c : Fin 128) (u : Fin 1) :
    shapeCast S512x128x1 x h (ix3 r c u) = x (ix2 r c) :=
  shapeCast_apply x h _ _ (by
    have hu : u.val = 0 := by omega
    rw [Shape.rowMajor_val_two, Shape.rowMajor_val_three]
    show r.val * 128 + c.val = (r.val * 128 + c.val) * 1 + u.val
    omega)

/-- A [512, 128, 1] array repeated along its last axis, 51 times. -/
theorem bcast_ab1_apply {α : Type} (x : S512x128x1.Idx → α) (h : S512x128x1.Broadcasts S512x128x51)
    (r : Fin 512) (c : Fin 128) (k : Fin 51) :
    broadcastTo S512x128x51 x h (ix3 r c k) = x (ix3 r c (0 : Fin 1)) :=
  broadcastTo_apply x h _ _ fun a => match a with
    | ⟨0, _⟩ => rfl
    | ⟨1, _⟩ => rfl
    | ⟨2, _⟩ => rfl

/-- A vector of 51 entries given two leading unit axes. -/
theorem cast_n_11n_apply {α : Type} (x : S51.Idx → α) (h : S51.ShapeCasts S1x1x51) (u u' : Fin 1) (k : Fin 51) :
    shapeCast S1x1x51 x h (ix3 u u' k) = x (ix1 k) :=
  shapeCast_apply x h _ _ (by
    have hu : u.val = 0 := by omega
    have hu' : u'.val = 0 := by omega
    rw [Shape.rowMajor_val_one, Shape.rowMajor_val_three]
    show k.val = (u.val * 1 + u'.val) * 51 + k.val
    omega)

/-- A [1, 1, 51] array repeated along both leading axes. -/
theorem bcast_11n_apply {α : Type} (x : S1x1x51.Idx → α) (h : S1x1x51.Broadcasts S512x128x51)
    (r : Fin 512) (c : Fin 128) (k : Fin 51) :
    broadcastTo S512x128x51 x h (ix3 r c k) = x (ix3 (0 : Fin 1) (0 : Fin 1) k) :=
  broadcastTo_apply x h _ _ fun a => match a with
    | ⟨0, _⟩ => rfl
    | ⟨1, _⟩ => rfl
    | ⟨2, _⟩ => rfl

/-! ## The reductions along the last axis, read at coordinates -/

/-- The index that a reduction of the last axis reads, at (r, c) and the coordinate k, is (r, c, k). -/
theorem lift_last (h : S512x128x51.Reduces [2] S512x128) (r : Fin 512) (c : Fin 128) (k : Fin 51) :
    h.lift (ix2 r c) k = ix3 r c k :=
  funext fun a => match a with
    | ⟨0, _⟩ => rfl
    | ⟨1, _⟩ => rfl
    | ⟨2, _⟩ => rfl

/-- A sum along the last axis. -/
theorem add_last_apply (x : FVec Ideal S512x128x51 .f32) (h : S512x128x51.Reduces [2] S512x128)
    (hφ : FKind.Formats .f32) (hacc : (0x00000000#32 : BitVec 32) = 0x00000000#32) (r : Fin 512) (c : Fin 128) :
    multiReduction .add [2] S512x128 x 0x00000000#32 h hφ hacc (ix2 r c) = ∑ k : Fin 51, x (ix3 r c k) :=
  (Ideal.multiReduction_add_single x 0x00000000#32 h hφ hacc (ix2 r c)).trans
    (Finset.sum_congr rfl fun k _ => congrArg x (lift_last h r c k))

/-- A maximum along the last axis, folded from minus infinity. -/
theorem max_last_apply (x : FVec Ideal S512x128x51 .f32) (h : S512x128x51.Reduces [2] S512x128)
    (hφ : FKind.Formats .f32) (hacc : (0xFF800000#32 : BitVec 32) = 0xFF800000#32) (r : Fin 512) (c : Fin 128) :
    multiReduction .maximumf [2] S512x128 x 0xFF800000#32 h hφ hacc (ix2 r c)
      = (Finset.univ : Finset (Fin 51)).fold max Cert.Spec.NI (fun k => x (ix3 r c k)) :=
  (Ideal.multiReduction_maximumf_single x 0xFF800000#32 h hφ hacc (ix2 r c)).trans
    (congrArg ((Finset.univ : Finset (Fin 51)).fold max Cert.Spec.NI) (funext fun k => congrArg x (lift_last h r c k)))

/-- The exponential, entry by entry. -/
theorem exp_apply {s : Shape} {φ : FTy} (a : FVec Ideal s φ) (i : s.Idx) : exp a i = Ideal.exp (a i) := rfl

/-! ## The softmax stage -/

/-- One action tile's expected support values: the logits are the tile's product with the advantage branch's hidden
    layer, regrouped by action, plus the tile's bias, plus the per-row bias; then the clamped softmax along the 51 bins,
    averaged against the support. -/
theorem pay8_apply (s0 : Vec Ideal S512x256 .f32) (s1 : Vec Ideal S512x51 .f32) (w : Vec Ideal S256x6528 .bf16)
    (bb : Vec Ideal S128x51 .f32) (vr : Vec Ideal S51 .f32) (r : Fin 512) (c : Fin 128) :
    k0_pay8 (F := Ideal) s0 s1 w bb vr (ix2 r c)
      = Cert.Spec.qval (fun k => ((∑ h : Fin 256, s0 (ix2 r h) * w (ix2 h (⟨51 * c.val + k.val, by omega⟩ : Fin 6528)))
          + bb (ix2 c k)) + s1 (ix2 r k)) (fun k => vr (ix1 k)) := by
  unfold k0_pay8
  -- the logits
  generalize hq : addf (F := Ideal) (φ := .f32) (addf _ _) (broadcastTo S512x128x51
      (shapeCast S512x1x51 (s1 : FVec Ideal S512x51 .f32) shapeCasts_S512x51_S512x1x51) broadcasts_S512x1x51_S512x128x51) = q
  have hq' : ∀ k : Fin 51, q (ix3 r c k)
      = ((∑ h : Fin 256, s0 (ix2 r h) * w (ix2 h (⟨51 * c.val + k.val, by omega⟩ : Fin 6528))) + bb (ix2 c k))
          + s1 (ix2 r k) := by
    intro k
    rw [← hq, addf_apply, addf_apply, bcast_a1n_apply, cast_an_a1n_apply, bcast_1bn_apply, shapeCast_ab_1ab_apply,
      shapeCast_self, cast_cols_apply]
    unfold matmul
    rw [matmul_zero_plain_apply _ rfl rfl rfl rfl rfl rfl, shapeCast_self]
    rfl
  clear hq
  -- the row maximum
  generalize hm : multiReduction .maximumf [2] S512x128 q 0xFF800000#32 reduces_S512x128x51_S512x128 (.inl rfl) rfl = m
  have hm' : m (ix2 r c) = (Finset.univ : Finset (Fin 51)).fold max Cert.Spec.NI (fun k => q (ix3 r c k)) := by
    rw [← hm]; exact max_last_apply q _ _ _ r c
  clear hm
  -- the exponentials
  generalize he : exp (subf q (broadcastTo S512x128x51 (shapeCast S512x128x1 (maximumf (broadcast S512x128 (Scalar.ofBits .f32 0xFF800000#32)) m)
      shapeCasts_S512x128_S512x128x1) broadcasts_S512x128x1_S512x128x51)) = e
  have he' : ∀ k : Fin 51, e (ix3 r c k) = Ideal.exp (q (ix3 r c k) - max Cert.Spec.NI (m (ix2 r c))) := by
    intro k
    rw [← he, exp_apply, subf_apply, bcast_ab1_apply, cast_ab_ab1_apply, maximumf_apply, broadcast_apply, Ideal.ofBits_def]
  clear he
  -- their sum
  generalize hs : multiReduction .add [2] S512x128 e 0x00000000#32 reduces_S512x128x51_S512x128 (.inl rfl) rfl = s
  have hs' : s (ix2 r c) = ∑ k : Fin 51, e (ix3 r c k) := by
    rw [← hs]; exact add_last_apply e _ _ _ r c
  clear hs
  -- the average against the support
  refine (add_last_apply _ _ _ _ r c).trans ?_
  unfold Cert.Spec.qval
  refine Finset.sum_congr rfl fun k _ => ?_
  rw [mulf_apply, maximumf_apply, divf_apply, broadcast_apply, bcast_11n_apply, cast_n_11n_apply, bcast_ab1_apply,
    cast_ab_ab1_apply, hs']
  simp only [he', hm', hq', Ideal.ofBits_def]

end Cert.Payload

end
-- ==== Proof.KernelGlobal.lean ====
/-
  What the kernel computes, as one function of the fifteen arrays its windows read: the input, the trunk's parameters,
  the averaged advantage weights and bias, the support, the padded advantage weights (flattened) and bias, and the padded
  mask. Row `b` of the input gives the advantage branch's hidden layer `advhG b` and the per-row bias
  `biasG b = val − (advh · averaged weights + averaged bias)`; padded action `a` then gets the logits
  `(advh · weights of a + bias of a) + biasG b`, their clamped-softmax expectation, the mask and the zero test.
-/
import proofs.«128833_j24103356465503_2_alg».proof.Proof.Spec

noncomputable section

namespace Cert.KGlobal

open Idealize.ShloMosaic Idealize.ShloMosaic.ValueIdx

/-- A matrix of extended reals with literal extents. -/
abbrev M2 (a b : ℕ) : Type := (⟨2, ![a, b]⟩ : Shape).Idx → EReal
/-- A vector of extended reals with a literal extent. -/
abbrev M1 (a : ℕ) : Type := (⟨1, ![a]⟩ : Shape).Idx → EReal

variable (a0 : M2 2048 1024) (a1 : M2 1024 256) (a2 : M1 256) (a3 : M2 256 256) (a4 : M1 256)
  (a5 : M2 256 256) (a6 : M1 256) (a7 : M2 256 51) (a8 : M1 51) (a9 : M2 256 51) (a10 : M1 51) (a11 : M1 51)
  (a12 : M2 256 52224) (a13 : M2 1024 51) (a14 : M2 2048 1024)

/-- The shared hidden layer of row `b`. -/
def hidG (b : Fin 2048) : Fin 256 → EReal :=
  Cert.Spec.rlin (fun k => a0 (ix2 b k)) (fun k j => a1 (ix2 k j)) (fun j => a2 (ix1 j))

/-- The advantage branch's hidden layer of row `b`. -/
def advhG (b : Fin 2048) : Fin 256 → EReal :=
  Cert.Spec.rlin (hidG a0 a1 a2 b) (fun k j => a3 (ix2 k j)) (fun j => a4 (ix1 j))

/-- The value head's logits of row `b`. -/
def valG (b : Fin 2048) : Fin 51 → EReal :=
  Cert.Spec.lin (Cert.Spec.rlin (hidG a0 a1 a2 b) (fun k j => a5 (ix2 k j)) (fun j => a6 (ix1 j)))
    (fun h k => a7 (ix2 h k)) (fun k => a8 (ix1 k))

/-- The per-row bias: the value logits minus the advantage logits averaged through the averaged weights. -/
def biasG (b : Fin 2048) (k : Fin 51) : EReal :=
  valG a0 a1 a2 a5 a6 a7 a8 b k - ((∑ h : Fin 256, advhG a0 a1 a2 a3 a4 b h * a9 (ix2 h k)) + a10 (ix1 k))

/-- Column `51 a + k` of the flattened padded weights. -/
def pcol (a : Fin 1024) (k : Fin 51) : Fin 52224 := ⟨51 * a.val + k.val, by omega⟩

/-- The kernel's entry for row `b` and padded action `a`. -/
def outAt (b : Fin 2048) (a : Fin 1024) : EReal :=
  Cert.Spec.sel (Cert.Spec.qval
      (fun k => ((∑ h : Fin 256, advhG a0 a1 a2 a3 a4 b h * a12 (ix2 h (pcol a k))) + a13 (ix2 a k))
        + biasG a0 a1 a2 a3 a4 a5 a6 a7 a8 a9 a10 b k)
      (fun k => a11 (ix1 k))
    * a14 (ix2 b a))

/-- The same as an array over the padded actions. -/
def outG : M2 2048 1024 := fun i => outAt a0 a1 a2 a3 a4 a5 a6 a7 a8 a9 a10 a11 a12 a13 a14 (i 0) (i 1)

theorem outG_apply (b : Fin 2048) (a : Fin 1024) :
    outG a0 a1 a2 a3 a4 a5 a6 a7 a8 a9 a10 a11 a12 a13 a14 (ix2 b a) = outAt a0 a1 a2 a3 a4 a5 a6 a7 a8 a9 a10 a11 a12 a13 a14 b a := rfl

end Cert.KGlobal

end
-- ==== Proof.KernelRows.lean ====
/-
  The induction over the grid. After the body at point `t` the first carried buffer holds, at `(r, h)`, the advantage
  branch's hidden layer of input row `512 (t / 8) + r`, the second the per-row bias of that row — computed at the first
  action tile of the batch tile and kept through the other seven — and the output's staging buffer holds, at `(r, q)`,
  the kernel's entry for that row and padded action `128 (t % 8) + q`.
-/
import proofs.«128833_j24103356465503_2_alg».proof.Proof.KernelTile
import proofs.«128833_j24103356465503_2_alg».proof.Proof.KernelBlocks
import proofs.«128833_j24103356465503_2_alg».proof.Proof.Payload
import proofs.«128833_j24103356465503_2_alg».proof.Proof.KernelGlobal

set_option maxRecDepth 16384

noncomputable section

namespace Cert.KernelIdeal.Tile

open Cert.KernelIdeal Cert.KernelIdeal.Gen Cert.Payload Cert.KGlobal
open Idealize.ShloMosaic Idealize.ShloMosaic.TcCoe Idealize.SL.Sem Idealize.ShloMosaic.ValueIdx

variable (m : (ℓ : Loc nD τ sig) → Buf (Elt Ideal) ℓ) (c : Dev nD)

/-- Column `51 q + k` of the point's weight block is column `51 (128 (t % 8) + q) + k` of the whole matrix. -/
theorem wcol_pcol (t : Fin cfg0.N) (q : Fin 128) (k : Fin 51) :
    wcol t (⟨51 * q.val + k.val, by omega⟩ : Fin 6528) = pcol (acol t q) k :=
  Fin.ext (by show 6528 * (t.val % 8) + (51 * q.val + k.val) = 51 * (128 * (t.val % 8) + q.val) + k.val; omega)

set_option backward.isDefEq.respectTransparency.types false in
set_option maxHeartbeats 1000000 in
/-- The hidden layer computed from the point's blocks, entry by entry. -/
theorem hid_entry (t : Fin cfg0.N) (r : Fin 512) (h : Fin 256) :
    hidBlk (F := Ideal) m c t (ix2 r h) = advhG (V m c main_arg0) (V m c main_arg1) (V m c main_arg2) (V m c main_arg3) (V m c main_arg4) (row t r) h := by
  unfold hidBlk
  rw [pay6_eq]
  refine (pay3_apply (iblk m c 0 t) (iblk m c 1 t) (iblk m c 2 t) (iblk m c 3 t) (iblk m c 4 t) r h).trans ?_
  simp only [blk0, blk1, blk2, blk3, blk4]
  rfl

set_option backward.isDefEq.respectTransparency.types false in
set_option maxHeartbeats 1000000 in
/-- The bias computed from the point's blocks, entry by entry. -/
theorem bias_entry (t : Fin cfg0.N) (r : Fin 512) (k : Fin 51) :
    biasBlk (F := Ideal) m c t (ix2 r k) = biasG (V m c main_arg0) (V m c main_arg1) (V m c main_arg2) (V m c main_arg3) (V m c main_arg4) (V m c main_arg7) (V m c main_arg8) (V m c main_arg9) (V m c main_arg10) (V m c main_v4) (V m c main_v7) (row t r) k := by
  unfold biasBlk
  refine (pay7_apply _ _ (iblk m c 10 t) r k).trans ?_
  rw [pay4_apply (iblk m c 0 t) (iblk m c 1 t) (iblk m c 2 t) (iblk m c 5 t) (iblk m c 6 t) (iblk m c 7 t) (iblk m c 8 t) r k,
    pay5_apply (iblk m c 0 t) (iblk m c 1 t) (iblk m c 2 t) (iblk m c 3 t) (iblk m c 4 t) (iblk m c 9 t) r k]
  simp only [blk0, blk1, blk2, blk3, blk4, blk5, blk6, blk7, blk8, blk9, blk10]
  rfl

set_option backward.isDefEq.respectTransparency.types false in
set_option maxHeartbeats 1000000 in
/-- The output tile computed from a hidden layer and a bias that are the row's, entry by entry. -/
theorem out_entry (t : Fin cfg0.N) (s0 : Vec Ideal S512x256 .f32) (s1 : Vec Ideal S512x51 .f32) (r : Fin 512) (q : Fin 128)
    (hs0 : ∀ h : Fin 256, s0 (ix2 r h) = advhG (V m c main_arg0) (V m c main_arg1) (V m c main_arg2) (V m c main_arg3) (V m c main_arg4) (row t r) h)
    (hs1 : ∀ k : Fin 51, s1 (ix2 r k) = biasG (V m c main_arg0) (V m c main_arg1) (V m c main_arg2) (V m c main_arg3) (V m c main_arg4) (V m c main_arg7) (V m c main_arg8) (V m c main_arg9) (V m c main_arg10) (V m c main_v4) (V m c main_v7) (row t r) k) :
    outBlk (F := Ideal) m c t s0 s1 (ix2 r q) = outAt (V m c main_arg0) (V m c main_arg1) (V m c main_arg2) (V m c main_arg3) (V m c main_arg4) (V m c main_arg7) (V m c main_arg8) (V m c main_arg9) (V m c main_arg10) (V m c main_v4) (V m c main_v7) (V m c main_arg11) (V m c main_v10) (V m c main_v11) (V m c main_v31) (row t r) (acol t q) := by
  unfold outBlk
  refine (pay1_apply _ _ r q).trans ?_
  rw [pay8_apply s0 s1 (iblk m c 12 t) (iblk m c 13 t) (iblk m c 11 t) r q, pay9_eq]
  simp only [hs0, hs1, blk11, blk12, blk13, blk14, wcol_pcol]
  rfl

/-- The batch tile does not change between a point that is not the first of its batch tile and the point before. -/
theorem row_pred (n : ℕ) (hn : n < cfg0.N) (h0 : ¬n % 8 = 0) (r : Fin 512) :
    row ⟨n - 1, Nat.lt_of_le_of_lt (Nat.sub_le _ _) hn⟩ r = row ⟨n, hn⟩ r :=
  Fin.ext (by show 512 * ((n - 1) / 8) + r.val = 512 * (n / 8) + r.val; omega)

/-- What the two carried buffers hold after the body at position `n`. -/
theorem carried : ∀ (n : ℕ) (hn : n < cfg0.N),
    (∀ (r : Fin 512) (h : Fin 256), (outsAt0 m c n hn).2.1 (ix2 r h) = advhG (V m c main_arg0) (V m c main_arg1) (V m c main_arg2) (V m c main_arg3) (V m c main_arg4) (row ⟨n, hn⟩ r) h)
    ∧ (∀ (r : Fin 512) (k : Fin 51), (outsAt0 m c n hn).2.2 (ix2 r k) = biasG (V m c main_arg0) (V m c main_arg1) (V m c main_arg2) (V m c main_arg3) (V m c main_arg4) (V m c main_arg7) (V m c main_arg8) (V m c main_arg9) (V m c main_arg10) (V m c main_v4) (V m c main_v7) (row ⟨n, hn⟩ r) k)
  | n, hn => by
    by_cases h0 : n % 8 = 0
    · rw [outs_A m c ⟨n, hn⟩ h0]
      exact ⟨fun r h => hid_entry m c ⟨n, hn⟩ r h, fun r k => bias_entry m c ⟨n, hn⟩ r k⟩
    · have hpos : n - 1 < n := by omega
      have ih := carried (n - 1) (Nat.lt_of_le_of_lt (Nat.sub_le _ _) hn)
      rw [outs_B m c ⟨n, hn⟩ h0]
      exact ⟨fun r h => (ih.1 r h).trans (by rw [row_pred n hn h0 r]), fun r k => (ih.2 r k).trans (by rw [row_pred n hn h0 r])⟩
termination_by n => n

/-- What the output's staging buffer holds after the body at point `t`. -/
theorem tile_out (t : Fin cfg0.N) (r : Fin 512) (q : Fin 128) :
    (outsAt0 m c t.val t.isLt).1 (ix2 r q) = outAt (V m c main_arg0) (V m c main_arg1) (V m c main_arg2) (V m c main_arg3) (V m c main_arg4) (V m c main_arg7) (V m c main_arg8) (V m c main_arg9) (V m c main_arg10) (V m c main_v4) (V m c main_v7) (V m c main_arg11) (V m c main_v10) (V m c main_v11) (V m c main_v31) (row t r) (acol t q) := by
  by_cases h0 : t.val % 8 = 0
  · rw [outs_A m c t h0]
    exact out_entry m c t _ _ r q (fun h => hid_entry m c t r h) (fun k => bias_entry m c t r k)
  · rw [outs_B m c t h0]
    have ih := carried m c (t.val - 1) (Nat.lt_of_le_of_lt (Nat.sub_le _ _) t.isLt)
    exact out_entry m c t _ _ r q (fun h => (ih.1 r h).trans (by rw [row_pred t.val t.isLt h0 r]))
      (fun k => (ih.2 r k).trans (by rw [row_pred t.val t.isLt h0 r]))

end Cert.KernelIdeal.Tile

end
-- ==== Proof.KernelArray.lean ====
/-
  From the kernel's output tiles to its result array, and the host line after the region.

  The output window's array is f32[2048, 1024]; the grid is 4 × 8, point `t` is batch tile `t / 8` and action tile
  `t % 8`, and its block is rows `512 (t / 8) … + 511`, columns `128 (t % 8) … + 127`, written back after every
  point. If each point leaves in the output's staging buffer the matching block of one function `G` of the array's
  index, the array ends holding `G`: every index `(b, a)` lies in the block of point `8 (b / 512) + a / 128`.
  The one host operation after the region keeps the first 1000 columns.
-/
import proofs.«128833_j24103356465503_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Arr

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The output window's block index at point `t`: batch tile `t / 8`, action tile `t % 8` (decided over the grid). -/
theorem idx_facts : ∀ t : Fin cfg0.N, win0_15.index t (0 : Fin 2) = t.val / 8 ∧ win0_15.index t (1 : Fin 2) = t.val % 8 :=
  (by decide +kernel : ∀ t : Fin grid0.N, _)

/-- What point `t` writes back is block `t` of `G`, when the staging buffer after the body at `t` holds that block. -/
theorem flushed_eq (c : Dev nD) (G : Buf (Elt F) ((c : Thread nD τ).loc main_v32))
    (htile : ∀ (t : Fin cfg0.N) (r : Fin 512) (q : Fin 128), (outsAt0 m c t.val t.isLt).1 (ix2 r q)
      = G (ix2 (⟨512 * (t.val / 8) + r.val, by have := t.isLt; have h32 : cfg0.N = 32 := N_0; omega⟩ : Fin 2048)
          (⟨128 * (t.val % 8) + q.val, by omega⟩ : Fin 1024)))
    (t : Fin cfg0.N) :
    (dats m 0 c).flushed 15 t = ((cfg0.win 15).blk t).view.read (Elt F) G := by
  show (cfg0.win 15).cut (grid0.coords t) ((dats m 0 c).after 15 t) = _
  rw [after0_15]
  refine funext fun (y : S512x128.Idx) => ?_
  obtain ⟨r, q, rfl⟩ : ∃ (r : Fin 512) (q : Fin 128), y = ix2 r q := ⟨y 0, y 1, eq_ix2 y⟩
  show (outsAt0 m c t.val t.isLt).1 (ix2 r q) = G (((cfg0.win 15).blk t).view.emb (ix2 r q))
  rw [htile t r q]
  refine congrArg G ?_
  obtain ⟨e0, e1⟩ := idx_facts t
  funext a; apply Fin.ext
  match a with
  | ⟨0, _⟩ => show 512 * (t.val / 8) + r.val = win0_15.index t (0 : Fin 2) * 512 + 1 * r.val; rw [e0]; omega
  | ⟨1, _⟩ => show 128 * (t.val % 8) + q.val = win0_15.index t (1 : Fin 2) * 128 + 1 * q.val; rw [e1]; omega

/-- An index of the array is in point `t`'s block iff each coordinate is in the block's range on its axis. -/
theorem mem_blk (t : Fin cfg0.N) (i : S2048x1024.Idx) :
    i ∈ ((cfg0.win 15).blk t).view.set ↔ ∀ a : Fin 2, win0_15.index t a * S512x128.size a ≤ (i a).val
      ∧ (i a).val < win0_15.index t a * S512x128.size a + S512x128.size a := by
  show i ∈ ((View.whole main_v32).slice (win0_15.rect t)).set ↔ _
  rw [View.set_slice_whole, Rect.mem_set_unit]
  exact Iff.rfl

/-- Every index `(b, a)` of the array lies in the block of point `8 (b / 512) + a / 128`. -/
theorem cover (i : S2048x1024.Idx) :
    ∃ t : Fin cfg0.N, (cfg0.win 15).flush t = true ∧ i ∈ ((cfg0.win 15).blk t).view.set := by
  have hi0 : (i 0).val < 2048 := (i 0).isLt
  have hi1 : (i 1).val < 1024 := (i 1).isLt
  have hN : cfg0.N = 32 := N_0
  have ht : 8 * ((i 0).val / 512) + (i 1).val / 128 < cfg0.N := by rw [hN]; omega
  refine ⟨⟨8 * ((i 0).val / 512) + (i 1).val / 128, ht⟩, flush0_15 _, ?_⟩
  rw [mem_blk]
  obtain ⟨e0, e1⟩ := idx_facts ⟨8 * ((i 0).val / 512) + (i 1).val / 128, ht⟩
  intro a
  match a with
  | ⟨0, _⟩ =>
    show win0_15.index ⟨8 * ((i 0).val / 512) + (i 1).val / 128, ht⟩ (0 : Fin 2) * 512 ≤ (i 0).val
      ∧ (i 0).val < win0_15.index ⟨8 * ((i 0).val / 512) + (i 1).val / 128, ht⟩ (0 : Fin 2) * 512 + 512
    rw [e0]; dsimp only; omega
  | ⟨1, _⟩ =>
    show win0_15.index ⟨8 * ((i 0).val / 512) + (i 1).val / 128, ht⟩ (1 : Fin 2) * 128 ≤ (i 1).val
      ∧ (i 1).val < win0_15.index ⟨8 * ((i 0).val / 512) + (i 1).val / 128, ht⟩ (1 : Fin 2) * 128 + 128
    rw [e1]; dsimp only; omega

/-- The result array after the run is `G`, when every point leaves its block of `G` in the staging buffer. -/
theorem final_of_tile (c : Dev nD) (G : Buf (Elt F) ((c : Thread nD τ).loc main_v32))
    (htile : ∀ (t : Fin cfg0.N) (r : Fin 512) (q : Fin 128), (outsAt0 m c t.val t.isLt).1 (ix2 r q)
      = G (ix2 (⟨512 * (t.val / 8) + r.val, by have := t.isLt; have h32 : cfg0.N = 32 := N_0; omega⟩ : Fin 2048)
          (⟨128 * (t.val % 8) + q.val, by omega⟩ : Fin 1024))) :
    (dats m 0 c).arrAt 15 cfg0.N = G :=
  (dats m 0 c).arrAt_eq_of_cover 15 G (fun t _ => flushed_eq m c G htile t) cover

/-- The host line after the region: the first 1000 columns of the result array. -/
theorem tail_eq (c : Dev nD) :
    Pipeline.afterTail₀ cfgs (dats m) 0 (V0 m) [hostOps1] c main_v33
      = extractStridedSlice S2048x1000 ![0, 0] ((dats m 0 c).arrAt 15 cfg0.N) slices_S2048x1024_S2048x1000_0_0 := by
  unfold Pipeline.afterTail₀
  show StableHlo.after hostOps1 _ (Proc.devRef .tc main_v33) = _
  after_results
  exact congrArg (fun A => extractStridedSlice S2048x1000 ![0, 0] A slices_S2048x1024_S2048x1000_0_0)
    (Pipeline.withArrays_arr spec0 launch0.win.arr_inj c _ _ 15)

/-- The slice read at `(b, a)`: the array at the same row, the same column. -/
theorem slice_apply (A : (⟨S2048x1024, .f32⟩ : BufTy).Contents (Elt F)) (b : Fin 2048) (a : Fin 1000) :
    extractStridedSlice S2048x1000 ![0, 0] A slices_S2048x1024_S2048x1000_0_0 (ix2 b a)
      = A (ix2 b (⟨a.val, by omega⟩ : Fin 1024)) := by
  unfold extractStridedSlice
  refine congrArg A ?_
  funext d; apply Fin.ext
  match d with
  | ⟨0, _⟩ => show 0 + b.val = b.val; omega
  | ⟨1, _⟩ => show 0 + a.val = a.val; omega

end Cert.KernelIdeal.Arr

end
-- ==== Proof.HostHead.lean ====
/-
  What the host computes before the kernel is launched, as functions of the argument arrays: the advantage head's
  weights and bias averaged over the 1000 actions, the same weights and bias padded with 24 zero actions (and the
  weights flattened back to a matrix), and the legal-move mask padded with 24 zero columns. The region finds exactly
  these terms in the buffers its windows read.
-/
import proofs.«128833_j24103356465503_2_alg».proof.Proof.Gen.KernelIdeal.Frame.Runs
import Idealize.ShloMosaic.Lib.StableHlo.Run

noncomputable section

namespace Cert.KernelIdeal.Head

open Cert.KernelIdeal Cert.KernelIdeal.Gen
open Idealize.ShloMosaic Idealize.ShloMosaic.TcCoe Idealize.SL.Sem Idealize.ShloMosaic.StableHlo

variable {F : FTy → Type} [FloatOps F]

/-- The advantage head's weights averaged over the actions: the [256, 51000] matrix cut to [256, 1000, 51], summed over
    the middle axis from zero, divided by 1000. -/
def wMean (x5 : (⟨S256x51000, .f32⟩ : BufTy).Contents (Elt F)) : (⟨S256x51, .f32⟩ : BufTy).Contents (Elt F) :=
  Host.divf (Host.reduceAdd (shapeCast S256x1000x51 x5 shapeCasts_S256x51000_S256x1000x51) (constant S_ .f32 0x00000000#32)
      reducesTo_S256x1000x51_S256x51_d1 h_S_)
    (broadcastInDim S256x51 ![] bcast_S_S256x51 (constant S_ .f32 0x447A0000#32))

/-- The advantage head's bias averaged over the actions. -/
def bMean (x6 : (⟨S51000, .f32⟩ : BufTy).Contents (Elt F)) : (⟨S51, .f32⟩ : BufTy).Contents (Elt F) :=
  Host.divf (Host.reduceAdd (shapeCast S1000x51 x6 shapeCasts_S51000_S1000x51) (constant S_ .f32 0x00000000#32)
      reducesTo_S1000x51_S51_d0 h_S_)
    (broadcastInDim S51 ![] bcast_S_S51 (constant S_ .f32 0x447A0000#32))

/-- The advantage head's weights with 24 zero actions appended, flattened to [256, 52224]. -/
def wPad (x5 : (⟨S256x51000, .f32⟩ : BufTy).Contents (Elt F)) : (⟨S256x52224, .bf16⟩ : BufTy).Contents (Elt F) :=
  truncf .bf16 (shapeCast S256x52224
    (pad S256x1024x51 ![0, 0, 0] ![0, 24, 0] ![0, 0, 0] (shapeCast S256x1000x51 x5 shapeCasts_S256x51000_S256x1000x51)
      (sitofp .f32 (constantI S_ 32 0#32)) pads_S256x1000x51_S256x1024x51_000_0240_000 h_S_)
    shapeCasts_S256x1024x51_S256x52224) bitsLt_bf16_f32

/-- The advantage head's bias with 24 zero actions appended. -/
def bPad (x6 : (⟨S51000, .f32⟩ : BufTy).Contents (Elt F)) : (⟨S1024x51, .f32⟩ : BufTy).Contents (Elt F) :=
  pad S1024x51 ![0, 0] ![24, 0] ![0, 0] (shapeCast S1000x51 x6 shapeCasts_S51000_S1000x51)
    (sitofp .f32 (constantI S_ 32 0#32)) pads_S1000x51_S1024x51_0240_000 h_S_

/-- The legal-move mask with 24 zero columns appended. -/
def mPad (mk : (⟨S2048x1000, .f32⟩ : BufTy).Contents (Elt F)) : (⟨S2048x1024, .f32⟩ : BufTy).Contents (Elt F) :=
  pad S2048x1024 ![0, 0] ![0, 24] ![0, 0] mk (sitofp .f32 (constantI S_ 32 0#32)) pads_S2048x1000_S2048x1024_000_0240 h_S_

variable (m : (ℓ : Loc nD τ sig) → Buf (Elt F) ℓ)

theorem V_v4 (c : Dev nD) : (V m c main_v4 : (⟨S256x51, .f32⟩ : BufTy).Contents (Elt F)) = wMean (m ((c : Thread nD τ).loc main_arg5)) := by
  dsimp only [V, V0]
  simp only [hostOps0, hostOps0_1, hostOps0_2, hostOps0_3, hostOps0_4, hostOps0_5, List.flatten_cons, List.flatten_nil,
    List.append_nil, List.cons_append, List.nil_append]
  after_results
  rfl

theorem V_v7 (c : Dev nD) : (V m c main_v7 : (⟨S51, .f32⟩ : BufTy).Contents (Elt F)) = bMean (m ((c : Thread nD τ).loc main_arg6)) := by
  dsimp only [V, V0]
  simp only [hostOps0, hostOps0_1, hostOps0_2, hostOps0_3, hostOps0_4, hostOps0_5, List.flatten_cons, List.flatten_nil,
    List.append_nil, List.cons_append, List.nil_append]
  after_results
  rfl

theorem V_v10 (c : Dev nD) : (V m c main_v10 : (⟨S256x52224, .bf16⟩ : BufTy).Contents (Elt F)) = wPad (m ((c : Thread nD τ).loc main_arg5)) := by
  dsimp only [V, V0]
  simp only [hostOps0, hostOps0_1, hostOps0_2, hostOps0_3, hostOps0_4, hostOps0_5, List.flatten_cons, List.flatten_nil,
    List.append_nil, List.cons_append, List.nil_append]
  after_results
  rfl

theorem V_v11 (c : Dev nD) : (V m c main_v11 : (⟨S1024x51, .f32⟩ : BufTy).Contents (Elt F)) = bPad (m ((c : Thread nD τ).loc main_arg6)) := by
  dsimp only [V, V0]
  simp only [hostOps0, hostOps0_1, hostOps0_2, hostOps0_3, hostOps0_4, hostOps0_5, List.flatten_cons, List.flatten_nil,
    List.append_nil, List.cons_append, List.nil_append]
  after_results
  rfl

end Cert.KernelIdeal.Head

end
-- ==== Proof.HostMask.lean ====
/-
  The legal-move mask the region finds: the host scatters ones into a zero [2048, 1000] array at the positions the
  move list names — the same operations, in the same order, as the reference's — and appends 24 zero columns.
  The host's operations before the launch come in six stretches; the mask is written by the fifth and padded by the
  sixth, and the move list is an argument no stretch writes.
-/
import proofs.«128833_j24103356465503_2_alg».proof.Proof.HostHead
import proofs.«128833_j24103356465503_2_alg».proof.Proof.Gen.ReferenceIdeal.Read

noncomputable section

namespace Cert.KernelIdeal.Head

open Cert.KernelIdeal Cert.KernelIdeal.Gen
open Idealize.ShloMosaic Idealize.ShloMosaic.TcCoe Idealize.SL.Sem Idealize.ShloMosaic.StableHlo

variable {F : FTy → Type} [FloatOps F]

/-- Running two lists of host operations one after the other is running the first, then the second. -/
theorem after_append (l1 l2 : List (HloOp τ sig (Elt F))) (W : Valuation τ sig (Elt F)) :
    StableHlo.after (l1 ++ l2) W = StableHlo.after l2 (StableHlo.after l1 W) := by
  induction l1 generalizing W with
  | nil => rfl
  | cons op ops ih => exact ih _

set_option maxHeartbeats 2000000 in
/-- The fifth stretch, from any contents: the scatter of ones at the move list's positions. -/
theorem mask_stretch (W : Valuation τ sig (Elt F)) :
    (StableHlo.after hostOps0_4 W (Proc.devRef .tc main_v30) : (⟨S2048x1000, .f32⟩ : BufTy).Contents (Elt F))
      = Cert.ReferenceIdeal.Read.val_main_v68 (F := F) (W (Proc.devRef .tc main_arg12)) := by
  simp only [hostOps0_4]
  after_results_simp
  rfl

/-- The fifth stretch ends with the integer zero the sixth pads with. -/
theorem zero_stretch (W : Valuation τ sig (Elt F)) :
    (StableHlo.after hostOps0_4 W (Proc.devRef .tc main_c_10) : (⟨S_, .i32⟩ : BufTy).Contents (Elt F)) = constantI S_ 32 0#32 := by
  simp only [hostOps0_4]
  after_results

/-- No operation of this stretch writes the move list. -/
theorem nw0 : ∀ op ∈ (hostOps0 : List (HloOp τ sig (Elt F))), Proc.devRef .tc main_arg12 ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of this stretch writes the move list. -/
theorem nw1 : ∀ op ∈ (hostOps0_1 : List (HloOp τ sig (Elt F))), Proc.devRef .tc main_arg12 ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of this stretch writes the move list. -/
theorem nw2 : ∀ op ∈ (hostOps0_2 : List (HloOp τ sig (Elt F))), Proc.devRef .tc main_arg12 ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of this stretch writes the move list. -/
theorem nw3 : ∀ op ∈ (hostOps0_3 : List (HloOp τ sig (Elt F))), Proc.devRef .tc main_arg12 ∉ op.writes :=
  List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- The first four stretches leave the move list as launched. -/
theorem keep12 (W : Valuation τ sig (Elt F)) :
    StableHlo.after hostOps0_3 (StableHlo.after hostOps0_2 (StableHlo.after hostOps0_1 (StableHlo.after hostOps0 W))) (Proc.devRef .tc main_arg12)
      = W (Proc.devRef .tc main_arg12) := by
  rw [StableHlo.after_of_forall_not_mem hostOps0_3 _ nw3, StableHlo.after_of_forall_not_mem hostOps0_2 _ nw2,
    StableHlo.after_of_forall_not_mem hostOps0_1 _ nw1, StableHlo.after_of_forall_not_mem hostOps0 _ nw0]

/-- The sixth stretch, from any contents: the mask it finds, padded with the zero it finds converted to a float. -/
theorem pad_stretch (W : Valuation τ sig (Elt F)) :
    (StableHlo.after hostOps0_5 W (Proc.devRef .tc main_v31) : (⟨S2048x1024, .f32⟩ : BufTy).Contents (Elt F))
      = pad S2048x1024 ![0, 0] ![0, 24] ![0, 0] (W (Proc.devRef .tc main_v30)) (sitofp .f32 (W (Proc.devRef .tc main_c_10)))
          pads_S2048x1000_S2048x1024_000_0240 h_S_ := by
  simp only [hostOps0_5]
  after_results
  rfl

variable (m : (ℓ : Loc nD τ sig) → Buf (Elt F) ℓ)

set_option maxHeartbeats 2000000 in
theorem V_v31 (c : Dev nD) : (V m c main_v31 : (⟨S2048x1024, .f32⟩ : BufTy).Contents (Elt F))
    = mPad (Cert.ReferenceIdeal.Read.val_main_v68 (F := F) (m ((c : Thread nD τ).loc main_arg12))) := by
  dsimp only [V, V0]
  simp only [List.flatten_cons, List.flatten_nil, List.append_nil]
  rw [after_append, after_append, after_append, after_append, after_append]
  rw [pad_stretch, mask_stretch, zero_stretch, keep12]
  rfl

end Cert.KernelIdeal.Head

end
-- ==== Proof.LibPadHigh.lean ====
/-
  A two-dimensional array padded at the high end of one axis, read at an index given by its coordinates.

  Padding an [a, b] array with extra rows after the last row (no padding in front, none between entries) gives an
  [a', b] array whose entry at row i and column q is the operand's entry (i, q) when i < a, and the padding value
  otherwise. Padding with extra columns after the last column is the same statement with the roles of the two
  coordinates exchanged. The integer zero converted to a float is the zero of the extended reals, so a pad whose
  padding value is that conversion pads with zeros.
-/
import Idealize.ShloMosaic.Lib.KernelVsHost
import Idealize.ShloMosaic.Lib.ValueLayout

noncomputable section

namespace Cert.LibPadHigh

open Idealize.ShloMosaic Idealize.ShloMosaic.ValueIdx

variable {α : Type}

/-- Extra rows after the last: row i of the padded array is row i of the operand when i < a, else the padding value. -/
theorem pad_rows_high_apply {a a' b e : ℕ} (x : (⟨2, ![a, b]⟩ : Shape).Idx → α) {u : Shape} (v : u.Idx → α)
    (hp : (⟨2, ![a, b]⟩ : Shape).Pads (![0, 0] : Fin 2 → Nat) ![e, 0] ![0, 0] ⟨2, ![a', b]⟩) (hu : 0 < u.numel)
    (i : Fin a') (q : Fin b) :
    pad ⟨2, ![a', b]⟩ (![0, 0] : Fin 2 → Nat) ![e, 0] ![0, 0] x v hp hu (ix2 i q)
      = if h : i.val < a then x (ix2 ⟨i.val, h⟩ q) else v (Shape.Idx.first hu) := by
  by_cases h : i.val < a
  · rw [dif_pos h]
    refine pad_apply_of_inside _ _ _ x v hp hu (ix2 i q) (ix2 ⟨i.val, h⟩ q) fun ax => ?_
    match ax with
    | ⟨0, _⟩ => show i.val = 0 + i.val * (0 + 1); omega
    | ⟨1, _⟩ => show q.val = 0 + q.val * (0 + 1); omega
  · rw [dif_neg h]
    refine pad_apply_of_not_inside _ _ _ x v hp hu (ix2 i q) (0 : Fin 2) fun hh => h ?_
    have h3 : (i.val - 0) / (0 + 1) < a := hh.2.2
    omega

/-- Extra columns after the last: column i of the padded array is column i of the operand when i < b, else the
    padding value. -/
theorem pad_cols_high_apply {a b b' e : ℕ} (x : (⟨2, ![a, b]⟩ : Shape).Idx → α) {u : Shape} (v : u.Idx → α)
    (hp : (⟨2, ![a, b]⟩ : Shape).Pads (![0, 0] : Fin 2 → Nat) ![0, e] ![0, 0] ⟨2, ![a, b']⟩) (hu : 0 < u.numel)
    (p : Fin a) (i : Fin b') :
    pad ⟨2, ![a, b']⟩ (![0, 0] : Fin 2 → Nat) ![0, e] ![0, 0] x v hp hu (ix2 p i)
      = if h : i.val < b then x (ix2 p ⟨i.val, h⟩) else v (Shape.Idx.first hu) := by
  by_cases h : i.val < b
  · rw [dif_pos h]
    refine pad_apply_of_inside _ _ _ x v hp hu (ix2 p i) (ix2 p ⟨i.val, h⟩) fun ax => ?_
    match ax with
    | ⟨0, _⟩ => show p.val = 0 + p.val * (0 + 1); omega
    | ⟨1, _⟩ => show i.val = 0 + i.val * (0 + 1); omega
  · rw [dif_neg h]
    refine pad_apply_of_not_inside _ _ _ x v hp hu (ix2 p i) (1 : Fin 2) fun hh => h ?_
    have h3 : (i.val - 0) / (0 + 1) < b := hh.2.2
    omega

/-- The integer zero word, converted to a float at the exact values, is zero at every index. -/
theorem sitofp_constantI_zero_apply {s : Shape} {φ : FTy} (j : s.Idx) :
    (sitofp φ (constantI s 32 0#32) : FVec Ideal s φ) j = 0 := by
  show ((((0#32 : BitVec 32).toInt : ℤ) : ℝ) : EReal) = 0
  simp

end Cert.LibPadHigh

end
-- ==== Proof.HostReads.lean ====
/-
  The host's terms before the launch, read at an index.

  The advantage head's [256, 51000] weight matrix is cut to [256, 1000, 51]: entry (h, a, k) of the cut is column
  51 a + k of row h. Summing the cut over its middle axis from zero and dividing by the float 1000 gives the averaged
  weights; the bias is the same one rank lower. Padding the cut with 24 zero actions and flattening it back gives a
  [256, 52224] matrix whose column 51 a + k, for a real action a < 1000, is still column 51 a + k of the weights; the
  padded bias and the padded mask are read the same way.
-/
import proofs.«128833_j24103356465503_2_alg».proof.Proof.HostHead
import proofs.«128833_j24103356465503_2_alg».proof.Proof.Spec
import proofs.«128833_j24103356465503_2_alg».proof.Proof.LibPadHigh
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

noncomputable section

namespace Cert.KernelIdeal.HeadReads

open Cert.KernelIdeal Cert.KernelIdeal.Gen Cert.KernelIdeal.Head Idealize.ShloMosaic Idealize.ShloMosaic.ValueIdx

/-! ### The two cuts -/

/-- Entry (h, a, k) of the weights cut to [256, 1000, 51] is column 51 a + k of row h. -/
theorem cutW_apply (x5 : (⟨S256x51000, .f32⟩ : BufTy).Contents (Elt Ideal)) (h : Fin 256) (a : Fin 1000) (k : Fin 51) :
    shapeCast S256x1000x51 x5 shapeCasts_S256x51000_S256x1000x51 (ix3 h a k) = x5 (ix2 h (Cert.Spec.col a k)) := by
  refine shapeCast_apply x5 _ (ix3 h a k) (ix2 h (Cert.Spec.col a k)) ?_
  rw [Shape.rowMajor_val_two, Shape.rowMajor_val_three]
  show h.val * 51000 + (51 * a.val + k.val) = (h.val * 1000 + a.val) * 51 + k.val
  omega

/-- Entry (a, k) of the bias cut to [1000, 51] is entry 51 a + k. -/
theorem cutB_apply (x6 : (⟨S51000, .f32⟩ : BufTy).Contents (Elt Ideal)) (a : Fin 1000) (k : Fin 51) :
    shapeCast S1000x51 x6 shapeCasts_S51000_S1000x51 (ix2 a k) = x6 (ix1 (Cert.Spec.col a k)) := by
  refine shapeCast_apply x6 _ (ix2 a k) (ix1 (Cert.Spec.col a k)) ?_
  rw [Shape.rowMajor_val_one, Shape.rowMajor_val_two]
  show 51 * a.val + k.val = a.val * 51 + k.val
  omega

/-! ### The two sums from the float zero -/

/-- The host's sum of a [256, 1000, 51] array over its middle axis, from the float zero, at (h, k). -/
theorem sumMid_apply (y : FVec Ideal S256x1000x51 .f32) (h : Fin 256) (k : Fin 51) :
    Host.reduceAdd (F := Ideal) y (constant S_ .f32 0x00000000#32) reducesTo_S256x1000x51_S256x51_d1 h_S_ (ix2 h k)
      = ∑ a : Fin 1000, y (ix3 h a k) := by
  simp only [Host.reduceAdd, Ideal.hostReduceAdd_def]
  rw [Ideal.hostReduceAdd_single reducesTo_S256x1000x51_S256x51_d1 (by decide)]
  refine (congrArg (· + _) (show constant (F := Ideal) S_ .f32 0x00000000#32 (Shape.Idx.first h_S_) = 0 from
    Ideal.ofBits_zero_f32)).trans ?_
  rw [zero_add]
  refine Finset.sum_congr rfl fun a _ => ?_
  exact congrArg y (funext fun c => Fin.ext (by match c with | ⟨0, _⟩ => rfl | ⟨1, _⟩ => rfl | ⟨2, _⟩ => rfl))

/-- The host's sum of a [1000, 51] array over its first axis, from the float zero, at k. -/
theorem sumFirst_apply (y : FVec Ideal S1000x51 .f32) (k : Fin 51) :
    Host.reduceAdd (F := Ideal) y (constant S_ .f32 0x00000000#32) reducesTo_S1000x51_S51_d0 h_S_ (ix1 k)
      = ∑ a : Fin 1000, y (ix2 a k) := by
  simp only [Host.reduceAdd, Ideal.hostReduceAdd_def]
  rw [Ideal.hostReduceAdd_single reducesTo_S1000x51_S51_d0 (by decide)]
  refine (congrArg (· + _) (show constant (F := Ideal) S_ .f32 0x00000000#32 (Shape.Idx.first h_S_) = 0 from
    Ideal.ofBits_zero_f32)).trans ?_
  rw [zero_add]
  refine Finset.sum_congr rfl fun a _ => ?_
  exact congrArg y (funext fun c => Fin.ext (by match c with | ⟨0, _⟩ => rfl | ⟨1, _⟩ => rfl))

/-! ### The averaged weights and bias -/

theorem wMean_apply (x5 : (⟨S256x51000, .f32⟩ : BufTy).Contents (Elt Ideal)) (h : Fin 256) (k : Fin 51) :
    wMean (F := Ideal) x5 (ix2 h k) = Ideal.div (∑ a : Fin 1000, x5 (ix2 h (Cert.Spec.col a k))) Cert.Spec.K1000 := by
  unfold wMean
  show Ideal.div (Host.reduceAdd (F := Ideal) _ (constant S_ .f32 0x00000000#32) reducesTo_S256x1000x51_S256x51_d1 h_S_ (ix2 h k))
    Cert.Spec.K1000 = _
  rw [sumMid_apply]
  exact congrArg (Ideal.div · Cert.Spec.K1000) (Finset.sum_congr rfl fun a _ => cutW_apply x5 h a k)

theorem bMean_apply (x6 : (⟨S51000, .f32⟩ : BufTy).Contents (Elt Ideal)) (k : Fin 51) :
    bMean (F := Ideal) x6 (ix1 k) = Ideal.div (∑ a : Fin 1000, x6 (ix1 (Cert.Spec.col a k))) Cert.Spec.K1000 := by
  unfold bMean
  show Ideal.div (Host.reduceAdd (F := Ideal) _ (constant S_ .f32 0x00000000#32) reducesTo_S1000x51_S51_d0 h_S_ (ix1 k))
    Cert.Spec.K1000 = _
  rw [sumFirst_apply]
  exact congrArg (Ideal.div · Cert.Spec.K1000) (Finset.sum_congr rfl fun a _ => cutB_apply x6 a k)

/-! ### The padded weights, bias and mask at a real action -/

/-- A [256, 1000, 51] array padded with extra actions after the last, read at a real action, is the operand there. -/
theorem padMid_apply {α : Type} (y : S256x1000x51.Idx → α) {u : Shape} (v : u.Idx → α)
    (hp : S256x1000x51.Pads (![0, 0, 0] : Fin 3 → Nat) ![0, 24, 0] ![0, 0, 0] S256x1024x51) (hu : 0 < u.numel)
    (h : Fin 256) (a : Fin 1000) (k : Fin 51) :
    pad S256x1024x51 (![0, 0, 0] : Fin 3 → Nat) ![0, 24, 0] ![0, 0, 0] y v hp hu (ix3 h (⟨a.val, by omega⟩ : Fin 1024) k)
      = y (ix3 h a k) := by
  refine pad_apply_of_inside _ _ _ y v hp hu (ix3 h (⟨a.val, by omega⟩ : Fin 1024) k) (ix3 h a k) fun ax => ?_
  match ax with
  | ⟨0, _⟩ => show h.val = 0 + h.val * (0 + 1); omega
  | ⟨1, _⟩ => show a.val = 0 + a.val * (0 + 1); omega
  | ⟨2, _⟩ => show k.val = 0 + k.val * (0 + 1); omega

/-- Narrowing the float format is the identity on the extended reals. -/
theorem truncf_bf16_apply {s : Shape} (X : FVec Ideal s .f32) (hlt : FTy.bits .bf16 < FTy.bits .f32) (j : s.Idx) :
    truncf (F := Ideal) .bf16 X hlt j = X j := rfl

theorem wPad_apply (x5 : (⟨S256x51000, .f32⟩ : BufTy).Contents (Elt Ideal)) (h : Fin 256) (a : Fin 1000) (k : Fin 51) :
    wPad (F := Ideal) x5 (ix2 h (⟨51 * a.val + k.val, by omega⟩ : Fin 52224)) = x5 (ix2 h (Cert.Spec.col a k)) := by
  unfold wPad
  refine (truncf_bf16_apply _ _ _).trans ?_
  refine (shapeCast_apply _ shapeCasts_S256x1024x51_S256x52224 (ix2 h (⟨51 * a.val + k.val, by omega⟩ : Fin 52224))
    (ix3 h (⟨a.val, by omega⟩ : Fin 1024) k) ?_).trans ?_
  · rw [Shape.rowMajor_val_two, Shape.rowMajor_val_three]
    show (h.val * 1024 + a.val) * 51 + k.val = h.val * 52224 + (51 * a.val + k.val)
    omega
  · exact (padMid_apply _ _ _ h_S_ h a k).trans (cutW_apply x5 h a k)

theorem bPad_apply (x6 : (⟨S51000, .f32⟩ : BufTy).Contents (Elt Ideal)) (a : Fin 1000) (k : Fin 51) :
    bPad (F := Ideal) x6 (ix2 (⟨a.val, by omega⟩ : Fin 1024) k) = x6 (ix1 (Cert.Spec.col a k)) := by
  unfold bPad
  refine (Cert.LibPadHigh.pad_rows_high_apply _ _ _ h_S_ (⟨a.val, by omega⟩ : Fin 1024) k).trans ?_
  rw [dif_pos a.isLt]
  exact cutB_apply x6 a k

theorem mPad_apply (mk : (⟨S2048x1000, .f32⟩ : BufTy).Contents (Elt Ideal)) (b : Fin 2048) (a : Fin 1000) :
    mPad (F := Ideal) mk (ix2 b (⟨a.val, by omega⟩ : Fin 1024)) = mk (ix2 b a) := by
  unfold mPad
  refine (Cert.LibPadHigh.pad_cols_high_apply _ _ _ h_S_ b (⟨a.val, by omega⟩ : Fin 1024)).trans ?_
  rw [dif_pos a.isLt]

end Cert.KernelIdeal.HeadReads

end
-- ==== Proof.KernelSpec.lean ====
/-
  The kernel's global function is the specification in the kernel's grouping.

  The kernel's entry for row b and action a reads the host's averaged weights and bias and the padded weights,
  bias and mask. Read at a real action a < 1000, the padded arrays give back the advantage head's own column
  51 a + k and the mask's own entry, and the averaged ones are the specification's averages; so the logits are
  the specification's logits in the kernel's grouping, term by term, and the entry is the specification's output.
-/
import proofs.«128833_j24103356465503_2_alg».proof.Proof.KernelGlobal
import proofs.«128833_j24103356465503_2_alg».proof.Proof.HostHead
import proofs.«128833_j24103356465503_2_alg».proof.Proof.HostReads
import proofs.«128833_j24103356465503_2_alg».proof.Proof.Spec

noncomputable section

namespace Cert.KernelSpec

open Cert.KernelIdeal Cert.KernelIdeal.Head Cert.KernelIdeal.HeadReads Idealize.ShloMosaic Idealize.ShloMosaic.ValueIdx

/-- Column 51 a + k of the flattened padded weights, at a real action. -/
theorem pcol_real (a : Fin 1000) (k : Fin 51) :
    Cert.KGlobal.pcol (⟨a.val, by omega⟩ : Fin 1024) k = (⟨51 * a.val + k.val, by omega⟩ : Fin 52224) := rfl

/-- The kernel's entry at a real action is the specification's output, the logits in the kernel's grouping. -/
theorem outAt_spec (x0 : (⟨S2048x1024, .f32⟩ : BufTy).Contents (Elt Ideal)) (x1 : (⟨S1024x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S256x51000, .f32⟩ : BufTy).Contents (Elt Ideal))
    (x6 : (⟨S51000, .f32⟩ : BufTy).Contents (Elt Ideal)) (x7 : (⟨S256x256, .f32⟩ : BufTy).Contents (Elt Ideal))
    (x8 : (⟨S256, .f32⟩ : BufTy).Contents (Elt Ideal)) (x9 : (⟨S256x51, .f32⟩ : BufTy).Contents (Elt Ideal))
    (x10 : (⟨S51, .f32⟩ : BufTy).Contents (Elt Ideal)) (x11 : (⟨S51, .f32⟩ : BufTy).Contents (Elt Ideal))
    (mk : (⟨S2048x1000, .f32⟩ : BufTy).Contents (Elt Ideal)) (b : Fin 2048) (a : Fin 1000) :
    Cert.KGlobal.outAt x0 x1 x2 x3 x4 x7 x8 x9 x10 (wMean (F := Ideal) x5) (bMean (F := Ideal) x6) x11
        (wPad (F := Ideal) x5) (bPad (F := Ideal) x6) (mPad (F := Ideal) mk) b (⟨a.val, by omega⟩ : Fin 1024)
      = Cert.Spec.out (Cert.Spec.qKer (Cert.Spec.netOf x1 x2 x3 x4 x5 x6 x7 x8 x9 x10 x11) (fun k => x0 (ix2 b k)) a)
          (Cert.Spec.netOf x1 x2 x3 x4 x5 x6 x7 x8 x9 x10 x11).vr (mk (ix2 b a)) := by
  unfold Cert.KGlobal.outAt Cert.Spec.out
  rw [mPad_apply]
  refine congrArg (fun q => Cert.Spec.sel (Cert.Spec.qval q _ * _)) (funext fun k => ?_)
  unfold Cert.KGlobal.biasG
  simp only [pcol_real, wPad_apply, bPad_apply, wMean_apply, bMean_apply]
  rfl

end Cert.KernelSpec

end
-- ==== Proof.LibERealFinite.lean ====
/-
  Extended reals that are real numbers: the predicate, its closure under the arithmetic the
  normalisation uses, and the two operations with corners (the quotient by a nonzero real and the
  reciprocal square root of a positive real) at real arguments.
-/
import Idealize.ShloMosaic.PureOps.Ideal
import Idealize.ShloMosaic.PureOps.Ideal.Laws
import Idealize.ShloMosaic.Lib.ReduceAll

noncomputable section

namespace Cert.Lib

open Idealize.ShloMosaic

/-- An extended real that is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

theorem IsReal.ne_top {x : EReal} (h : IsReal x) : x ≠ ⊤ := ((isReal_iff x).mp h).1

theorem IsReal.ne_bot {x : EReal} (h : IsReal x) : x ≠ ⊥ := ((isReal_iff x).mp h).2

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-- The larger of two reals, as extended reals, is the larger real. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem IsReal.max {x y : EReal} (hx : IsReal x) (hy : IsReal y) : IsReal (max x y) := by
  obtain ⟨a, rfl⟩ := hx
  obtain ⟨b, rfl⟩ := hy
  exact ⟨_, coe_max a b⟩

/-- A finite sum of reals, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A row of a matrix product of real matrices is real. -/
theorem IsReal.dot {ι : Type*} (s : Finset ι) (x w : ι → EReal) (hx : ∀ k, IsReal (x k)) (hw : ∀ k, IsReal (w k)) :
    IsReal (∑ k ∈ s, x k * w k) :=
  IsReal.sum s _ fun k _ => (hx k).mul (hw k)

/-- The quotient of a real by a nonzero real is the real quotient. -/
theorem div_coe_coe (a : ℝ) {c : ℝ} (hc : c ≠ 0) : Ideal.div (a : EReal) (c : EReal) = ((a / c : ℝ) : EReal) := by
  rw [Ideal.div_coe hc, ← EReal.coe_mul, mul_one_div]

theorem IsReal.div_coe {x : EReal} (hx : IsReal x) {c : ℝ} (hc : c ≠ 0) : IsReal (Ideal.div x (c : EReal)) := by
  obtain ⟨a, rfl⟩ := hx
  exact ⟨_, div_coe_coe a hc⟩

/-- The reciprocal square root of a positive real is the real one. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_pos {r : ℝ} (h : 0 < r) : IsReal (Ideal.rsqrt (r : EReal)) := ⟨_, rsqrt_coe_pos h⟩

/-- `(1 + ε) · x + z` of reals is real. -/
theorem IsReal.affine {a x z : EReal} (ha : IsReal a) (hx : IsReal x) (hz : IsReal z) : IsReal ((1 + a) * x + z) :=
  ((isReal_one.add ha).mul hx).add hz

/-- A gather of real entries has real entries: each one is an entry of the operand. -/
theorem isReal_gather {s si t : Shape} {w : Nat} (d : GatherDims s si t) (x : s.Idx → EReal) (idx : IVec si w)
    (hx : ∀ i, IsReal (x i)) (j : t.Idx) : IsReal (Host.gather d x idx j) :=
  hx _

/-- A scatter-add, on the extended reals, of real updates into real entries has real entries: each one is an
    entry of the operand plus a finite sum of updates. -/
theorem isReal_scatterAdd {φ : FTy} {s si su : Shape} {w : Nat} (d : ScatterDims s si su) (x : FVec Ideal s φ)
    (idx : IVec si w) (upd : FVec Ideal su φ) (hx : ∀ i, IsReal (x i)) (hu : ∀ j, IsReal (upd j)) (i : s.Idx) :
    IsReal (Host.scatterAdd d x idx upd i) := by
  show IsReal (x i + ∑ j ∈ _, upd j)
  exact (hx i).add (IsReal.sum _ _ fun j _ => hu j)

/-- The f32 pattern `0x7F800000` denotes +∞. -/
theorem ofBits_inf_f32 : Ideal.ofBits .f32 0x7F800000#32 = ⊤ := by
  simp [Ideal.ofBits, Ideal.ieee]

/-- An extended real whose absolute value compares below +∞ is a real. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  change BitVec.ofBool (decide (max x (-x) < Ideal.ofBits .f32 0x7F800000#32)) = 1#1 at h
  rw [ofBits_inf_f32] at h
  induction x using EReal.rec with
  | bot => simp at h
  | coe r => exact ⟨r, rfl⟩
  | top => simp at h

/-- `all (|x| < +∞)` over a whole array (the reduction by `and` of the comparison against the broadcast pattern of
    +∞ is 1) says every entry is a real. -/
theorem isReal_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] bc (constant ⟨0, ![]⟩ .f32 0x7F800000#32)))
      (constantI ⟨0, ![]⟩ 1 1#1) h hu j = 1#1) (i : s.Idx) : IsReal (x i) := by
  haveI : Subsingleton (⟨0, ![]⟩ : Shape).Idx := ⟨fun a b => funext fun d => d.elim0⟩
  exact isReal_of_abs_lt_inf (x i) (Host.reduce_andi_all _ _ h hu j e i)

/-- The same for a scalar (no broadcast of the pattern). -/
theorem isReal_of_all_finite₀ {axes : List (Fin (⟨0, ![]⟩ : Shape).rank)} (x : FVec Ideal ⟨0, ![]⟩ .f32)
    (h : (⟨0, ![]⟩ : Shape).ReducesTo axes ⟨0, ![]⟩) (hu : 0 < (⟨0, ![]⟩ : Shape).numel) (j : (⟨0, ![]⟩ : Shape).Idx)
    (e : Host.reduce IntOp.andi (cmpf .olt (Host.absf x) (constant ⟨0, ![]⟩ .f32 0x7F800000#32))
      (constantI ⟨0, ![]⟩ 1 1#1) h hu j = 1#1) (i : (⟨0, ![]⟩ : Shape).Idx) : IsReal (x i) := by
  haveI : Subsingleton (⟨0, ![]⟩ : Shape).Idx := ⟨fun a b => funext fun d => d.elim0⟩
  exact isReal_of_abs_lt_inf (x i) (Host.reduce_andi_all _ _ h hu j e i)

end Cert.Lib

end
-- ==== Proof.Algebra.lean ====
/-
  The two groupings of the dueling logits agree when every entry is a real number.

  The reference averages the advantage logits over the actions; the kernel averages the advantage head's weights
  and bias first. The mean is linear: for reals,
  `(∑ h, A h * ((∑ a, w h a) / c)) + (∑ a, b a) / c = (∑ a, ((∑ h, A h * w h a) + b a)) / c`,
  and then `adv + (val - mean) = (val + adv) - mean`. On the extended reals neither step holds in general (an
  infinite entry breaks distributivity and cancellation), so the law is proved on ℝ and carried over: every
  layer of the network maps real entries to real entries.
-/
import proofs.«128833_j24103356465503_2_alg».proof.Proof.Spec
import proofs.«128833_j24103356465503_2_alg».proof.Proof.LibERealFinite

noncomputable section

namespace Cert.Algebra

open Idealize.ShloMosaic Cert.Lib Cert.Spec

/-- every parameter is a real number -/
structure AllReal (N : Cert.Spec.Net) : Prop where
  win : ∀ k j, IsReal (N.win k j)
  bin : ∀ j, IsReal (N.bin j)
  wah : ∀ k j, IsReal (N.wah k j)
  bah : ∀ j, IsReal (N.bah j)
  wao : ∀ h a k, IsReal (N.wao h a k)
  bao : ∀ a k, IsReal (N.bao a k)
  wvh : ∀ k j, IsReal (N.wvh k j)
  bvh : ∀ j, IsReal (N.bvh j)
  wvo : ∀ k j, IsReal (N.wvo k j)
  bvo : ∀ j, IsReal (N.bvo j)
  vr : ∀ k, IsReal (N.vr k)

/-- The parameters read out of eleven arrays of real entries are all real. -/
theorem allReal_netOf (x1 : (⟨2, ![1024, 256]⟩ : Shape).Idx → EReal) (x2 : (⟨1, ![256]⟩ : Shape).Idx → EReal)
    (x3 : (⟨2, ![256, 256]⟩ : Shape).Idx → EReal) (x4 : (⟨1, ![256]⟩ : Shape).Idx → EReal)
    (x5 : (⟨2, ![256, 51000]⟩ : Shape).Idx → EReal) (x6 : (⟨1, ![51000]⟩ : Shape).Idx → EReal)
    (x7 : (⟨2, ![256, 256]⟩ : Shape).Idx → EReal) (x8 : (⟨1, ![256]⟩ : Shape).Idx → EReal)
    (x9 : (⟨2, ![256, 51]⟩ : Shape).Idx → EReal) (x10 : (⟨1, ![51]⟩ : Shape).Idx → EReal)
    (x11 : (⟨1, ![51]⟩ : Shape).Idx → EReal)
    (h1 : ∀ i, IsReal (x1 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) (h8 : ∀ i, IsReal (x8 i))
    (h9 : ∀ i, IsReal (x9 i)) (h10 : ∀ i, IsReal (x10 i)) (h11 : ∀ i, IsReal (x11 i)) :
    AllReal (netOf x1 x2 x3 x4 x5 x6 x7 x8 x9 x10 x11) where
  win _ _ := h1 _
  bin _ := h2 _
  wah _ _ := h3 _
  bah _ := h4 _
  wao _ _ _ := h5 _
  bao _ _ := h6 _
  wvh _ _ := h7 _
  bvh _ := h8 _
  wvo _ _ := h9 _
  bvo _ := h10 _
  vr _ := h11 _

/-- The float word `0x447A0000` (sign 0, exponent 136, fraction `0x7A0000`) is exactly 1000. -/
theorem K1000_eq : Cert.Spec.K1000 = ((1000 : ℝ) : EReal) := by
  simp [Ideal.ofBits, Ideal.ieee, -EReal.coe_mul]; norm_num

/-- The float word `0x00000000` is zero. -/
theorem Z_eq : Cert.Spec.Z = 0 := Ideal.ofBits_zero_f32

/-! ### The law on the reals -/

/-- The mean over `a` commutes with the affine map `A ↦ ∑ h, A h * w h a + b a`. -/
theorem mean_affine {ι κ : Type*} [Fintype ι] [Fintype κ] (A : ι → ℝ) (w : ι → κ → ℝ) (b : κ → ℝ) (c : ℝ) :
    (∑ h, A h * ((∑ a, w h a) / c)) + (∑ a, b a) / c = (∑ a, ((∑ h, A h * w h a) + b a)) / c := by
  -- both sides become `(∑ ∑ A h * (w h a / c)) + ∑ a, b a / c`, up to the order of the double sum
  simp only [Finset.sum_div, add_div, Finset.mul_sum, mul_div_assoc, Finset.sum_add_distrib]
  rw [Finset.sum_comm]

/-- The two groupings, on the reals. -/
theorem regroup (v d m : ℝ) : d + (v - m) = (v + d) - m := by ring

/-! ### Every layer keeps real entries real -/

theorem isReal_Z : IsReal Z := by rw [Z_eq]; exact isReal_zero

theorem isReal_lin {n p : ℕ} (x : Fin n → EReal) (w : Fin n → Fin p → EReal) (b : Fin p → EReal)
    (hx : ∀ k, IsReal (x k)) (hw : ∀ k j, IsReal (w k j)) (hb : ∀ j, IsReal (b j)) (j : Fin p) :
    IsReal (lin x w b j) :=
  (IsReal.dot _ x (fun k => w k j) hx (fun k => hw k j)).add (hb j)

theorem isReal_rlin {n p : ℕ} (x : Fin n → EReal) (w : Fin n → Fin p → EReal) (b : Fin p → EReal)
    (hx : ∀ k, IsReal (x k)) (hw : ∀ k j, IsReal (w k j)) (hb : ∀ j, IsReal (b j)) (j : Fin p) :
    IsReal (rlin x w b j) :=
  (isReal_lin x w b hx hw hb j).max isReal_Z

variable (N : Cert.Spec.Net) (hN : AllReal N) (x : Fin 1024 → EReal) (hx : ∀ k, IsReal (x k))

include hN hx

theorem isReal_hid (j : Fin 256) : IsReal (hid N x j) := isReal_rlin x N.win N.bin hx hN.win hN.bin j

theorem isReal_advh (j : Fin 256) : IsReal (advh N x j) :=
  isReal_rlin (hid N x) N.wah N.bah (isReal_hid N hN x hx) hN.wah hN.bah j

theorem isReal_valh (j : Fin 256) : IsReal (valh N x j) :=
  isReal_rlin (hid N x) N.wvh N.bvh (isReal_hid N hN x hx) hN.wvh hN.bvh j

theorem isReal_val (k : Fin 51) : IsReal (val N x k) :=
  isReal_lin (valh N x) N.wvo N.bvo (isReal_valh N hN x hx) hN.wvo hN.bvo k

/-! ### The two groupings agree -/

theorem qKer_eq_qRef (a : Fin 1000) : Cert.Spec.qKer N x a = Cert.Spec.qRef N x a := by
  funext k
  -- real witnesses for the advantage branch's hidden layer, the advantage head and the value logit
  choose A hA using isReal_advh N hN x hx
  choose w hw using hN.wao
  choose b hb using hN.bao
  obtain ⟨v, hv⟩ := isReal_val N hN x hx k
  have hc : (1000 : ℝ) ≠ 0 := by norm_num
  -- each action's advantage logit is the coercion of the real one
  have hadv : ∀ a' : Fin 1000, adv N x a' k = (((∑ h, A h * w h a' k) + b a' k : ℝ) : EReal) := by
    intro a'
    unfold adv
    simp only [hA, hw, hb]
    simp only [← EReal.coe_mul, coe_sum, ← EReal.coe_add]
  -- the averaged weights and bias are coercions of the real averages
  have hwm : ∀ h : Fin 256, wmean N h k = (((∑ a', w h a' k) / 1000 : ℝ) : EReal) := by
    intro h
    unfold wmean
    simp only [hw, K1000_eq, coe_sum]
    exact div_coe_coe _ hc
  have hbm : bmean N k = (((∑ a', b a' k) / 1000 : ℝ) : EReal) := by
    unfold bmean
    simp only [hb, K1000_eq, coe_sum]
    exact div_coe_coe _ hc
  have hmeanK : (∑ h : Fin 256, advh N x h * wmean N h k) + bmean N k
      = (((∑ h, A h * ((∑ a', w h a' k) / 1000)) + (∑ a', b a' k) / 1000 : ℝ) : EReal) := by
    simp only [hA, hwm, hbm]
    simp only [← EReal.coe_mul, coe_sum, ← EReal.coe_add]
  have hmeanR : Ideal.div (∑ a' : Fin 1000, adv N x a' k) K1000
      = (((∑ a', ((∑ h, A h * w h a' k) + b a' k)) / 1000 : ℝ) : EReal) := by
    simp only [hadv, K1000_eq, coe_sum]
    exact div_coe_coe _ hc
  unfold qKer qRef bias
  rw [hmeanK, hmeanR, hadv a, hv, mean_affine A (fun h a' => w h a' k) (fun a' => b a' k) 1000,
    ← EReal.coe_sub, ← EReal.coe_add, ← EReal.coe_add, ← EReal.coe_sub, regroup]

end Cert.Algebra

end
-- ==== Proof.Finite.lean ====
/-
  From the finiteness precondition to "every entry of every float argument is a real number".

  The precondition is the conjunction, over the twelve float arguments, of `all (|x| < +∞)`: a reduction by `and`
  of the entrywise comparison of `|x|` against the broadcast pattern of +∞. The conjunction is 1 only when each
  conjunct is; a reduction by `and` over all axes is 1 only when every entry is; and an extended real whose
  absolute value is below +∞ is neither infinity.
-/
import proofs.«128833_j24103356465503_2_alg».proof.Defs
import proofs.«128833_j24103356465503_2_alg».proof.Proof.Spec
import proofs.«128833_j24103356465503_2_alg».proof.Proof.LibERealFinite
import Idealize.ShloMosaic.Lib.ReduceAll

noncomputable section

namespace Cert.Finite

open Idealize.ShloMosaic Cert.Lib Cert.Pre_finite_inputs

/-- An entrywise `and` of two `i1` arrays that is 1 at an index has both operands 1 there. -/
theorem andi_split {s : Shape} (a b : IVec s 1) (j : s.Idx) (h : andi a b j = 1#1) : a j = 1#1 ∧ b j = 1#1 :=
  IntOp.andi_eq_one.mp h

/-- Under the finiteness precondition every entry of the twelve float arguments is a real number. -/
theorem real_of_pre [Facts]
    (x0 : FVec Ideal S2048x1024 .f32) (x1 : FVec Ideal S1024x256 .f32) (x2 : FVec Ideal S256 .f32)
    (x3 : FVec Ideal S256x256 .f32) (x4 : FVec Ideal S256 .f32) (x5 : FVec Ideal S256x51000 .f32)
    (x6 : FVec Ideal S51000 .f32) (x7 : FVec Ideal S256x256 .f32) (x8 : FVec Ideal S256 .f32)
    (x9 : FVec Ideal S256x51 .f32) (x10 : FVec Ideal S51 .f32) (x11 : FVec Ideal S51 .f32)
    (x12 : IVec S2048x200 32)
    (h : Cert.Pre_finite_inputs.fn (F := Ideal) x0 x1 x2 x3 x4 x5 x6 x7 x8 x9 x10 x11 x12 = fun _ => 1#1) :
    (∀ i, IsReal (x0 i)) ∧ (∀ i, IsReal (x1 i)) ∧ (∀ i, IsReal (x2 i)) ∧ (∀ i, IsReal (x3 i)) ∧
    (∀ i, IsReal (x4 i)) ∧ (∀ i, IsReal (x5 i)) ∧ (∀ i, IsReal (x6 i)) ∧ (∀ i, IsReal (x7 i)) ∧
    (∀ i, IsReal (x8 i)) ∧ (∀ i, IsReal (x9 i)) ∧ (∀ i, IsReal (x10 i)) ∧ (∀ i, IsReal (x11 i)) := by
  have h0 := congrFun h ValueIdx.ix0
  dsimp only [fn, fn_part1, fn_part2, fn_part3] at h0
  -- the conjunction is nested to the left: peel the last conjunct off, twelve conjuncts in all
  obtain ⟨h0, e11⟩ := andi_split _ _ _ h0
  obtain ⟨h0, e10⟩ := andi_split _ _ _ h0
  obtain ⟨h0, e9⟩ := andi_split _ _ _ h0
  obtain ⟨h0, e8⟩ := andi_split _ _ _ h0
  obtain ⟨h0, e7⟩ := andi_split _ _ _ h0
  obtain ⟨h0, e6⟩ := andi_split _ _ _ h0
  obtain ⟨h0, e5⟩ := andi_split _ _ _ h0
  obtain ⟨h0, e4⟩ := andi_split _ _ _ h0
  obtain ⟨h0, e3⟩ := andi_split _ _ _ h0
  obtain ⟨h0, e2⟩ := andi_split _ _ _ h0
  obtain ⟨e0, e1⟩ := andi_split _ _ _ h0
  exact ⟨isReal_of_all_finite x0 _ _ _ _ e0, isReal_of_all_finite x1 _ _ _ _ e1,
    isReal_of_all_finite x2 _ _ _ _ e2, isReal_of_all_finite x3 _ _ _ _ e3,
    isReal_of_all_finite x4 _ _ _ _ e4, isReal_of_all_finite x5 _ _ _ _ e5,
    isReal_of_all_finite x6 _ _ _ _ e6, isReal_of_all_finite x7 _ _ _ _ e7,
    isReal_of_all_finite x8 _ _ _ _ e8, isReal_of_all_finite x9 _ _ _ _ e9,
    isReal_of_all_finite x10 _ _ _ _ e10, isReal_of_all_finite x11 _ _ _ _ e11⟩

end Cert.Finite

end
-- ==== Proof.Common.lean ====
/-
  The result both programs end with, as one array of the argument arrays and the legal-move mask: entry `(b, a)` is the
  specification's output for input row `b` and action `a`, in the reference's grouping of the logits.
-/
import proofs.«128833_j24103356465503_2_alg».proof.Proof.Spec
import proofs.«128833_j24103356465503_2_alg».proof.Proof.KernelGlobal

noncomputable section

namespace Cert.Common

open Idealize.ShloMosaic Idealize.ShloMosaic.ValueIdx Cert.KGlobal

/-- The result at row `b`, action `a`. -/
def specAt (x0 : M2 2048 1024) (x1 : M2 1024 256) (x2 : M1 256) (x3 : M2 256 256) (x4 : M1 256) (x5 : M2 256 51000)
    (x6 : M1 51000) (x7 : M2 256 256) (x8 : M1 256) (x9 : M2 256 51) (x10 x11 : M1 51) (mk : M2 2048 1000)
    (b : Fin 2048) (a : Fin 1000) : EReal :=
  Cert.Spec.out (Cert.Spec.qRef (Cert.Spec.netOf x1 x2 x3 x4 x5 x6 x7 x8 x9 x10 x11) (fun k => x0 (ix2 b k)) a)
    (Cert.Spec.netOf x1 x2 x3 x4 x5 x6 x7 x8 x9 x10 x11).vr (mk (ix2 b a))

/-- The result array. -/
def specArr (x0 : M2 2048 1024) (x1 : M2 1024 256) (x2 : M1 256) (x3 : M2 256 256) (x4 : M1 256) (x5 : M2 256 51000)
    (x6 : M1 51000) (x7 : M2 256 256) (x8 : M1 256) (x9 : M2 256 51) (x10 x11 : M1 51) (mk : M2 2048 1000) : M2 2048 1000 :=
  fun i => specAt x0 x1 x2 x3 x4 x5 x6 x7 x8 x9 x10 x11 mk (i 0) (i 1)

end Cert.Common

end
-- ==== Proof.KernelFinal.lean ====
/-
  The kernel's run, read as values. The output array is tiled by the 32 output tiles, each the kernel's global
  function on its rows and padded actions; the host keeps the first 1000 columns; the arrays the region finds are the
  arguments, the host's averages and paddings of the advantage head, and the padded mask; reading those at the real
  actions gives the specification in the kernel's grouping, which on real entries is the reference's grouping.
-/
import proofs.«128833_j24103356465503_2_alg».proof.Proof.KernelRows
import proofs.«128833_j24103356465503_2_alg».proof.Proof.KernelArray
import proofs.«128833_j24103356465503_2_alg».proof.Proof.HostMask
import proofs.«128833_j24103356465503_2_alg».proof.Proof.KernelSpec
import proofs.«128833_j24103356465503_2_alg».proof.Proof.Algebra
import proofs.«128833_j24103356465503_2_alg».proof.Proof.Finite
import proofs.«128833_j24103356465503_2_alg».proof.Proof.Common

set_option maxRecDepth 16384

noncomputable section

namespace Cert.KernelIdeal.Final

open Cert.KernelIdeal Cert.KernelIdeal.Gen Cert.KernelIdeal.Tile Cert.KGlobal Cert.Common
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The kernel's global function over the arrays the region finds. -/
abbrev outV (c : Dev nD) : M2 2048 1024 := outG (V m c main_arg0) (V m c main_arg1) (V m c main_arg2) (V m c main_arg3) (V m c main_arg4) (V m c main_arg7) (V m c main_arg8) (V m c main_arg9) (V m c main_arg10) (V m c main_v4) (V m c main_v7) (V m c main_arg11) (V m c main_v10) (V m c main_v11) (V m c main_v31)

/-- The first 1000 columns of the kernel's global function are the common result array, when every float input is
    finite. -/
theorem result_eq [Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = fun _ => 1#1) :
    extractStridedSlice S2048x1000 ![0, 0] (outV m c) slices_S2048x1024_S2048x1000_0_0
      = specArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (Cert.ReferenceIdeal.Read.val_main_v68 (F := Ideal) (m ((c : Thread nD τ).loc main_arg12))) := by
  funext i
  obtain ⟨b, a, rfl⟩ : ∃ (b : Fin 2048) (a : Fin 1000), i = ix2 b a := ⟨i 0, i 1, eq_ix2 i⟩
  refine (Cert.KernelIdeal.Arr.slice_apply (F := Ideal) (outV m c) b a).trans ?_
  show outAt (V m c main_arg0) (V m c main_arg1) (V m c main_arg2) (V m c main_arg3) (V m c main_arg4) (V m c main_arg7) (V m c main_arg8) (V m c main_arg9) (V m c main_arg10) (V m c main_v4) (V m c main_v7) (V m c main_arg11) (V m c main_v10) (V m c main_v11) (V m c main_v31) b ⟨a.val, _⟩ = specAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) _ b a
  rw [V_main_arg0 m c, V_main_arg1 m c, V_main_arg2 m c, V_main_arg3 m c, V_main_arg4 m c, V_main_arg7 m c, V_main_arg8 m c,
    V_main_arg9 m c, V_main_arg10 m c, V_main_arg11 m c, Cert.KernelIdeal.Head.V_v4 m c, Cert.KernelIdeal.Head.V_v7 m c,
    Cert.KernelIdeal.Head.V_v10 m c, Cert.KernelIdeal.Head.V_v11 m c, Cert.KernelIdeal.Head.V_v31 m c]
  rw [Cert.KernelSpec.outAt_spec]
  obtain ⟨h0, h1, h2, h3, h4, h5, h6, h7, h8, h9, h10, h11⟩ := Cert.Finite.real_of_pre _ _ _ _ _ _ _ _ _ _ _ _ _ hpre
  unfold specAt
  rw [Cert.Algebra.qKer_eq_qRef _ (Cert.Algebra.allReal_netOf _ _ _ _ _ _ _ _ _ _ _ h1 h2 h3 h4 h5 h6 h7 h8 h9 h10 h11) _
    (fun k => h0 _) a]

/-- The output's staging buffer after the body at a point is the point's tile of the kernel's global function. -/
theorem htile (c : Dev nD) (t : Fin cfg0.N) (r : Fin 512) (q : Fin 128) :
    (outsAt0 m c t.val t.isLt).1 (ix2 r q) = outV m c (ix2 (row t r) (acol t q)) :=
  tile_out m c t r q

/-- So the output array ends at the kernel's global function. -/
theorem out_arr (c : Dev nD) : (dats m 0 c).arrAt 15 cfg0.N = outV m c :=
  Cert.KernelIdeal.Arr.final_of_tile m c (outV m c) (fun t r q => htile m c t r q)

/-- The result buffer after the host's column cut is the common result array. -/
theorem res_eq [Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = fun _ => 1#1) :
    Pipeline.afterTail₀ cfgs (dats m) 0 (V0 m) [hostOps1] c main_v33
      = specArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (Cert.ReferenceIdeal.Read.val_main_v68 (F := Ideal) (m ((c : Thread nD τ).loc main_arg12))) := by
  rw [Cert.KernelIdeal.Arr.tail_eq m c, out_arr m c]
  exact result_eq m c hpre

set_option backward.isDefEq.respectTransparency.types false in
set_option maxHeartbeats 2000000 in
/-- Every weakly fair execution of the idealized kernel's @main terminates with the result at the common result array and
    the arguments unchanged, when every float input is finite. -/
theorem run_value [Cert.Pre_finite_inputs.Facts] (ρ : Dev nD → PrngReg)
    (hpre : ∀ c : Dev nD, Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = fun _ => 1#1) :
    θ_run defs (onTc (τ := τ) (main (F := Ideal))) ⟨m, fun _ => 0, ρ⟩ (fun r => ∀ c : Dev nD,
      r.2.mem ((c : Thread nD τ).loc main_v33) = specArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (Cert.ReferenceIdeal.Read.val_main_v68 (F := Ideal) (m ((c : Thread nD τ).loc main_arg12)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)) := by
  refine (θ_run defs _ _).mono (fun r h c => ?_) (run_main m ρ)
  have hv : r.2.mem ((c : Thread nD τ).loc main_v33) = Pipeline.afterTail₀ cfgs (dats m) 0 (V0 m) [hostOps1] c main_v33 :=
    (h c).2 main_v33 (Pipeline.mem_restRefs_of main_v33 (by decide) (by decide))
  refine ⟨hv.trans (res_eq m c (hpre c)), ?_, ?_, ?_, ?_, ?_, ?_, ?_, ?_, ?_, ?_, ?_, ?_, ?_⟩
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))
  · exact ((h c).1 3).trans (((dats m 0 c).arrAt_in 3 rfl _).trans ((A_eq m c 3).trans (V_main_arg3 m c)))
  · exact ((h c).1 4).trans (((dats m 0 c).arrAt_in 4 rfl _).trans ((A_eq m c 4).trans (V_main_arg4 m c)))
  · exact (((h c).2 main_arg5 (Pipeline.mem_restRefs_of main_arg5 (by decide) (by decide))).trans (W_main_arg5 m (dats m) c))
  · exact (((h c).2 main_arg6 (Pipeline.mem_restRefs_of main_arg6 (by decide) (by decide))).trans (W_main_arg6 m (dats m) c))
  · exact ((h c).1 5).trans (((dats m 0 c).arrAt_in 5 rfl _).trans ((A_eq m c 5).trans (V_main_arg7 m c)))
  · exact ((h c).1 6).trans (((dats m 0 c).arrAt_in 6 rfl _).trans ((A_eq m c 6).trans (V_main_arg8 m c)))
  · exact ((h c).1 7).trans (((dats m 0 c).arrAt_in 7 rfl _).trans ((A_eq m c 7).trans (V_main_arg9 m c)))
  · exact ((h c).1 8).trans (((dats m 0 c).arrAt_in 8 rfl _).trans ((A_eq m c 8).trans (V_main_arg10 m c)))
  · exact ((h c).1 11).trans (((dats m 0 c).arrAt_in 11 rfl _).trans ((A_eq m c 11).trans (V_main_arg11 m c)))
  · exact (((h c).2 main_arg12 (Pipeline.mem_restRefs_of main_arg12 (by decide) (by decide))).trans (W_main_arg12 m (dats m) c))

end Cert.KernelIdeal.Final

end
-- ==== Proof.RefSide.lean ====
/-
  The reference program, read entry by entry, is the network's forward pass of the specification in the
  reference's grouping.

  Row `b` of the input passes through the shared hidden layer, the advantage branch and the value branch; each affine
  layer is a plain matrix product read at an index, plus a bias broadcast along the rows, and the rectifier is the
  maximum with the float zero. The advantage head's [2048, 51000] result is reshaped to [2048, 1000, 51]: entry
  `(b, a, k)` is column `51 a + k`. The mean over the actions is a sum from the float zero divided by the float 1000;
  the dueling combination is `(val + adv) - mean`. The softmax over the 51 bins subtracts the row maximum (a fold of
  `max` from minus infinity), exponentiates, divides by the sum, clamps from below, and averages against the support.
  The result is multiplied by the legal-move mask's entry (kept as the scatter's value, unopened), and an exact zero
  becomes minus infinity.

  Every lemma is stated at explicit coordinates `(b, j)`, `(b, a, k)`.
-/
import proofs.«128833_j24103356465503_2_alg».proof.Proof.Gen.ReferenceIdeal.Read
import proofs.«128833_j24103356465503_2_alg».proof.Proof.Spec

noncomputable section

namespace Cert.RefSide

open Cert.ReferenceIdeal Cert.ReferenceIdeal.Gen Cert.ReferenceIdeal.Read Idealize.ShloMosaic

variable (x0 : (⟨S2048x1024, .f32⟩ : BufTy).Contents (Elt Ideal))
  (x1 : (⟨S1024x256, .f32⟩ : BufTy).Contents (Elt Ideal))
  (x2 : (⟨S256, .f32⟩ : BufTy).Contents (Elt Ideal))
  (x3 : (⟨S256x256, .f32⟩ : BufTy).Contents (Elt Ideal))
  (x4 : (⟨S256, .f32⟩ : BufTy).Contents (Elt Ideal))
  (x5 : (⟨S256x51000, .f32⟩ : BufTy).Contents (Elt Ideal))
  (x6 : (⟨S51000, .f32⟩ : BufTy).Contents (Elt Ideal))
  (x7 : (⟨S256x256, .f32⟩ : BufTy).Contents (Elt Ideal))
  (x8 : (⟨S256, .f32⟩ : BufTy).Contents (Elt Ideal))
  (x9 : (⟨S256x51, .f32⟩ : BufTy).Contents (Elt Ideal))
  (x10 : (⟨S51, .f32⟩ : BufTy).Contents (Elt Ideal))
  (x11 : (⟨S51, .f32⟩ : BufTy).Contents (Elt Ideal))
  (x12 : (⟨S2048x200, .i32⟩ : BufTy).Contents (Elt Ideal))
  (b : Fin 2048)

/-- The network read out of the eleven parameter arrays. -/
local notation "NN" => Spec.netOf x1 x2 x3 x4 x5 x6 x7 x8 x9 x10 x11
/-- Row `b` of the input. -/
local notation "xrow" => (fun k : Fin 1024 => x0 (ValueIdx.ix2 b k))

open ValueIdx in
/-- The shared hidden layer at row `b`, unit `j`: the product with the input weights, plus the bias, rectified. -/
theorem hid_apply (j : Fin 256) :
    val_main_v4 (F := Ideal) x0 x1 x2 (ix2 b j) = Spec.hid NN xrow j := by
  rw [val_main_v4_apply, val_main_v3_apply, val_main_v0_apply, val_main_v2_apply, val_main_v1_apply,
    val_main_call0_v0_apply, val_main_call0_cst_apply]
  have e1 : ∀ k, lidx_main_v0 (ix2 b j) k = ix2 b k := fun k =>
    funext fun a => Fin.ext (by match a with | ⟨0, _⟩ => rfl | ⟨1, _⟩ => rfl)
  have e2 : ∀ k, ridx_main_v0 (ix2 b j) k = ix2 k j := fun k =>
    funext fun a => Fin.ext (by match a with | ⟨0, _⟩ => rfl | ⟨1, _⟩ => rfl)
  have e3 : idx_main_v1 (idx_main_v2 (ix2 b j)) = ix1 j :=
    funext fun a => Fin.ext (by match a with | ⟨0, _⟩ => rfl)
  simp only [e1, e2, e3]
  rfl

open ValueIdx in
/-- The advantage branch's hidden layer at row `b`, unit `j`. -/
theorem advh_apply (j : Fin 256) :
    val_main_v9 (F := Ideal) x0 x1 x2 x3 x4 (ix2 b j) = Spec.advh NN xrow j := by
  rw [val_main_v9_apply, val_main_v8_apply, val_main_v5_apply, val_main_v7_apply, val_main_v6_apply,
    val_main_call1_v0_apply, val_main_call1_cst_apply]
  have e1 : ∀ k, lidx_main_v5 (ix2 b j) k = ix2 b k := fun k =>
    funext fun a => Fin.ext (by match a with | ⟨0, _⟩ => rfl | ⟨1, _⟩ => rfl)
  have e2 : ∀ k, ridx_main_v5 (ix2 b j) k = ix2 k j := fun k =>
    funext fun a => Fin.ext (by match a with | ⟨0, _⟩ => rfl | ⟨1, _⟩ => rfl)
  have e3 : idx_main_v6 (idx_main_v7 (ix2 b j)) = ix1 j :=
    funext fun a => Fin.ext (by match a with | ⟨0, _⟩ => rfl)
  simp only [e1, e2, e3, hid_apply x0 x1 x2 x3 x4 x5 x6 x7 x8 x9 x10 x11 b]
  rfl

open ValueIdx in
/-- The value branch's hidden layer at row `b`, unit `j`. -/
theorem valh_apply (j : Fin 256) :
    val_main_v14 (F := Ideal) x0 x1 x2 x7 x8 (ix2 b j) = Spec.valh NN xrow j := by
  rw [val_main_v14_apply, val_main_v13_apply, val_main_v10_apply, val_main_v12_apply, val_main_v11_apply,
    val_main_call2_v0_apply, val_main_call2_cst_apply]
  have e1 : ∀ k, lidx_main_v10 (ix2 b j) k = ix2 b k := fun k =>
    funext fun a => Fin.ext (by match a with | ⟨0, _⟩ => rfl | ⟨1, _⟩ => rfl)
  have e2 : ∀ k, ridx_main_v10 (ix2 b j) k = ix2 k j := fun k =>
    funext fun a => Fin.ext (by match a with | ⟨0, _⟩ => rfl | ⟨1, _⟩ => rfl)
  have e3 : idx_main_v11 (idx_main_v12 (ix2 b j)) = ix1 j :=
    funext fun a => Fin.ext (by match a with | ⟨0, _⟩ => rfl)
  simp only [e1, e2, e3, hid_apply x0 x1 x2 x3 x4 x5 x6 x7 x8 x9 x10 x11 b]
  rfl

open ValueIdx in
/-- The value head's logit at row `b`, bin `k`. -/
theorem val_apply (k : Fin 51) :
    val_main_v23 (F := Ideal) x0 x1 x2 x7 x8 x9 x10 (ix2 b k) = Spec.val NN xrow k := by
  rw [val_main_v23_apply, val_main_v20_apply, val_main_v22_apply, val_main_v21_apply]
  have e1 : ∀ h, lidx_main_v20 (ix2 b k) h = ix2 b h := fun h =>
    funext fun a => Fin.ext (by match a with | ⟨0, _⟩ => rfl | ⟨1, _⟩ => rfl)
  have e2 : ∀ h, ridx_main_v20 (ix2 b k) h = ix2 h k := fun h =>
    funext fun a => Fin.ext (by match a with | ⟨0, _⟩ => rfl | ⟨1, _⟩ => rfl)
  have e3 : idx_main_v21 (idx_main_v22 (ix2 b k)) = ix1 k :=
    funext fun a => Fin.ext (by match a with | ⟨0, _⟩ => rfl)
  simp only [e1, e2, e3, valh_apply x0 x1 x2 x3 x4 x5 x6 x7 x8 x9 x10 x11 b]
  rfl

open ValueIdx in
/-- The advantage head's logit at row `b`, action `a`, bin `k`: entry `(b, a, k)` of the reshaped array is column
    `51 a + k` of the [2048, 51000] product. -/
theorem adv_apply (a : Fin 1000) (k : Fin 51) :
    val_main_v19 (F := Ideal) x0 x1 x2 x3 x4 x5 x6 (ix3 b a k) = Spec.adv NN xrow a k := by
  rw [val_main_v19_apply]
  have e0 : idx_main_v19 (ix3 b a k) = ix2 b (Spec.col a k) :=
    funext fun d => Fin.ext (by
      have hb := b.isLt; have ha := a.isLt; have hk := k.isLt
      match d with
      | ⟨0, _⟩ => show ((b.val * 1000 + a.val) * 51 + k.val) / 51000 = b.val; omega
      | ⟨1, _⟩ => show ((b.val * 1000 + a.val) * 51 + k.val) % 51000 = 51 * a.val + k.val; omega)
  rw [e0, val_main_v18_apply, val_main_v15_apply, val_main_v17_apply, val_main_v16_apply]
  have e1 : ∀ h, lidx_main_v15 (ix2 b (Spec.col a k)) h = ix2 b h := fun h =>
    funext fun d => Fin.ext (by match d with | ⟨0, _⟩ => rfl | ⟨1, _⟩ => rfl)
  have e2 : ∀ h, ridx_main_v15 (ix2 b (Spec.col a k)) h = ix2 h (Spec.col a k) := fun h =>
    funext fun d => Fin.ext (by match d with | ⟨0, _⟩ => rfl | ⟨1, _⟩ => rfl)
  have e3 : idx_main_v16 (idx_main_v17 (ix2 b (Spec.col a k))) = ix1 (Spec.col a k) :=
    funext fun d => Fin.ext (by match d with | ⟨0, _⟩ => rfl)
  simp only [e1, e2, e3, advh_apply x0 x1 x2 x3 x4 x5 x6 x7 x8 x9 x10 x11 b]
  rfl

open ValueIdx in
/-- The sum of the advantage logits over the 1000 actions at row `b`, bin `k` (the reduction starts from the float zero). -/
theorem advsum_apply (k : Fin 51) :
    val_main_v27 (F := Ideal) x0 x1 x2 x3 x4 x5 x6 (ix2 b k) = ∑ a' : Fin 1000, Spec.adv NN xrow a' k := by
  rw [val_main_v27_apply, val_main_cst_apply]
  have e : ∀ a', idx_main_v27 (ix2 b k) a' = ix3 b a' k := fun a' =>
    funext fun d => Fin.ext (by match d with | ⟨0, _⟩ => rfl | ⟨1, _⟩ => rfl | ⟨2, _⟩ => rfl)
  simp only [e, adv_apply x0 x1 x2 x3 x4 x5 x6 x7 x8 x9 x10 x11 b]
  rw [Ideal.ofBits_def, Ideal.ofBits_zero_f32, zero_add]

open ValueIdx in
/-- The dueling combination at row `b`, action `a`, bin `k`, in the reference's grouping. -/
theorem q_apply (a : Fin 1000) (k : Fin 51) :
    val_main_v32 (F := Ideal) x0 x1 x2 x3 x4 x5 x6 x7 x8 x9 x10 (ix3 b a k) = Spec.qRef NN xrow a k := by
  rw [val_main_v32_apply, val_main_v26_apply, val_main_v25_apply, val_main_v24_apply, val_main_v31_apply,
    val_main_v30_apply, val_main_v28_apply, val_main_v29_apply, val_main_cst_0_apply]
  have e1 : idx_main_v24 (idx_main_v25 (ix3 b a k)) = ix2 b k :=
    funext fun d => Fin.ext (by
      have hb := b.isLt; have hk := k.isLt
      match d with
      | ⟨0, _⟩ => show ((b.val * 1 + 0) * 51 + k.val) / 51 = b.val; omega
      | ⟨1, _⟩ => show ((b.val * 1 + 0) * 51 + k.val) % 51 = k.val; omega)
  have e2 : idx_main_v28 (idx_main_v31 (ix3 b a k)) = ix2 b k :=
    funext fun d => Fin.ext (by match d with | ⟨0, _⟩ => rfl | ⟨1, _⟩ => rfl)
  rw [e1, e2, val_apply x0 x1 x2 x3 x4 x5 x6 x7 x8 x9 x10 x11 b, adv_apply x0 x1 x2 x3 x4 x5 x6 x7 x8 x9 x10 x11 b,
    advsum_apply x0 x1 x2 x3 x4 x5 x6 x7 x8 x9 x10 x11 b]
  rfl

/-- What the softmax subtracts from a row of 51 logits: the row maximum, folded from minus infinity and joined once more
    with minus infinity. -/
abbrev rowShift (q : Fin 51 → EReal) : EReal := max Spec.NI ((Finset.univ : Finset (Fin 51)).fold max Spec.NI q)

open ValueIdx in
/-- The reduced index `(b, a)` with the bin `k` put back is `(b, a, k)`. -/
theorem lift_bin (h : S2048x1000x51.Reduces [2] S2048x1000) (a : Fin 1000) (k : Fin (S2048x1000x51.size 2)) :
    h.lift (ix2 b a) k = ix3 b a (⟨k.val, k.isLt⟩ : Fin 51) :=
  funext fun d => Fin.ext (by match d with | ⟨0, _⟩ => rfl | ⟨1, _⟩ => rfl | ⟨2, _⟩ => rfl)

open ValueIdx in
/-- The maximum-reduction over the 51 bins at row `b`, action `a`: the fold of `max` from minus infinity over the
    action's logits (the operation is commutative and associative, so the order of the fold is immaterial). -/
theorem rowmax_apply (a : Fin 1000) :
    val_main_v33 (F := Ideal) x0 x1 x2 x3 x4 x5 x6 x7 x8 x9 x10 (ix2 b a)
      = (Finset.univ : Finset (Fin 51)).fold max Spec.NI (Spec.qRef NN xrow a) := by
  unfold val_main_v33
  generalize hy : val_main_v32 (F := Ideal) x0 x1 x2 x3 x4 x5 x6 x7 x8 x9 x10 = y
  have h : S2048x1000x51.Reduces [2] S2048x1000 := by decide
  refine (Host.reduce_eq_fold_single (FloatOps.maximumf (F := Ideal) (φ := .f32)) y _ reducesTo_S2048x1000x51_S2048x1000_d2 h h_S_
    (ix2 b a)).trans ?_
  have hf : (y ∘ h.lift (ix2 b a)) = Spec.qRef NN xrow a := funext fun k => by
    show y (h.lift (ix2 b a) k) = Spec.qRef NN xrow a ⟨k.val, k.isLt⟩
    rw [lift_bin b h a k, ← hy, q_apply x0 x1 x2 x3 x4 x5 x6 x7 x8 x9 x10 x11 b]
  exact congrArg (fun f => Finset.fold max Spec.NI f (Finset.univ : Finset (Fin 51))) hf

open ValueIdx in
/-- The exponential of a shifted logit at row `b`, action `a`, bin `k`. -/
theorem exp_apply (a : Fin 1000) (k : Fin 51) :
    val_main_v39 (F := Ideal) x0 x1 x2 x3 x4 x5 x6 x7 x8 x9 x10 (ix3 b a k)
      = Ideal.exp (Spec.qRef NN xrow a k - rowShift (Spec.qRef NN xrow a)) := by
  rw [val_main_v39_apply, val_main_v38_apply, val_main_v37_apply, val_main_v36_apply, val_main_v35_apply,
    val_main_v34_apply, val_main_cst_2_apply]
  have e : idx_main_v36 (idx_main_v37 (ix3 b a k)) = ix2 b a :=
    funext fun d => Fin.ext (by match d with | ⟨0, _⟩ => rfl | ⟨1, _⟩ => rfl)
  rw [e, rowmax_apply x0 x1 x2 x3 x4 x5 x6 x7 x8 x9 x10 x11 b, q_apply x0 x1 x2 x3 x4 x5 x6 x7 x8 x9 x10 x11 b]
  rfl

open ValueIdx in
/-- The softmax's denominator at row `b`, action `a` (the reduction starts from the float zero). -/
theorem expsum_apply (a : Fin 1000) :
    val_main_v40 (F := Ideal) x0 x1 x2 x3 x4 x5 x6 x7 x8 x9 x10 (ix2 b a)
      = ∑ k' : Fin 51, Ideal.exp (Spec.qRef NN xrow a k' - rowShift (Spec.qRef NN xrow a)) := by
  rw [val_main_v40_apply, val_main_cst_3_apply]
  have e : ∀ k', idx_main_v40 (ix2 b a) k' = ix3 b a k' := fun k' =>
    funext fun d => Fin.ext (by match d with | ⟨0, _⟩ => rfl | ⟨1, _⟩ => rfl | ⟨2, _⟩ => rfl)
  simp only [e, exp_apply x0 x1 x2 x3 x4 x5 x6 x7 x8 x9 x10 x11 b]
  rw [Ideal.ofBits_def, Ideal.ofBits_zero_f32, zero_add]

open ValueIdx in
/-- The clamped probability times the support value at row `b`, action `a`, bin `k`. -/
theorem term_apply (a : Fin 1000) (k : Fin 51) :
    val_main_v48 (F := Ideal) x0 x1 x2 x3 x4 x5 x6 x7 x8 x9 x10 x11 (ix3 b a k)
      = max (Ideal.div (Ideal.exp (Spec.qRef NN xrow a k - rowShift (Spec.qRef NN xrow a)))
          (∑ k' : Fin 51, Ideal.exp (Spec.qRef NN xrow a k' - rowShift (Spec.qRef NN xrow a)))) Spec.EPS * x11 (ix1 k) := by
  rw [val_main_v48_apply, val_main_v45_apply, val_main_v43_apply, val_main_v42_apply, val_main_v41_apply,
    val_main_v44_apply, val_main_cst_4_apply, val_main_v47_apply, val_main_v46_apply]
  have e1 : idx_main_v41 (idx_main_v42 (ix3 b a k)) = ix2 b a :=
    funext fun d => Fin.ext (by match d with | ⟨0, _⟩ => rfl | ⟨1, _⟩ => rfl)
  have e2 : idx_main_v46 (idx_main_v47 (ix3 b a k)) = ix1 k :=
    funext fun d => Fin.ext (by match d with | ⟨0, _⟩ => rfl)
  rw [e1, e2, exp_apply x0 x1 x2 x3 x4 x5 x6 x7 x8 x9 x10 x11 b, expsum_apply x0 x1 x2 x3 x4 x5 x6 x7 x8 x9 x10 x11 b]
  rfl

open ValueIdx in
/-- The expected support value under the clamped softmax at row `b`, action `a` (the reduction starts from the float zero). -/
theorem qval_apply (a : Fin 1000) :
    val_main_v49 (F := Ideal) x0 x1 x2 x3 x4 x5 x6 x7 x8 x9 x10 x11 (ix2 b a)
      = Spec.qval (Spec.qRef NN xrow a) (NN).vr := by
  rw [val_main_v49_apply, val_main_cst_5_apply]
  have e : ∀ k, idx_main_v49 (ix2 b a) k = ix3 b a k := fun k =>
    funext fun d => Fin.ext (by match d with | ⟨0, _⟩ => rfl | ⟨1, _⟩ => rfl | ⟨2, _⟩ => rfl)
  simp only [e, term_apply x0 x1 x2 x3 x4 x5 x6 x7 x8 x9 x10 x11 b]
  rw [Ideal.ofBits_def, Ideal.ofBits_zero_f32, zero_add]
  rfl

open ValueIdx in
/-- The reference's result at row `b`, action `a`: the expected value times the legal-move mask's entry, an exact zero
    replaced by minus infinity. The mask stays the scatter's value, unopened. -/
theorem ref_apply (a : Fin 1000) :
    val_main_v72 (F := Ideal) x0 x1 x2 x3 x4 x5 x6 x7 x8 x9 x10 x11 x12 (ix2 b a)
      = Spec.out (Spec.qRef NN xrow a) (NN).vr (val_main_v68 (F := Ideal) x12 (ix2 b a)) := by
  rw [val_main_v72_apply, val_main_v71_apply, val_main_v69_apply, val_main_v70_apply, val_main_cst_11_apply,
    val_main_call3_v1_apply, val_main_call3_v0_apply, val_main_cst_12_apply, qval_apply x0 x1 x2 x3 x4 x5 x6 x7 x8 x9 x10 x11 b]
  rfl

end Cert.RefSide

end
-- ==== Proof.RefFinal.lean ====
/-
  The reference's result, as the common result array: entry by entry it is the specification in the reference's own
  grouping, with the mask the reference's scatter.
-/
import proofs.«128833_j24103356465503_2_alg».proof.Proof.RefSide
import proofs.«128833_j24103356465503_2_alg».proof.Proof.Common

noncomputable section

namespace Cert.ReferenceIdeal.Final

open Cert.ReferenceIdeal Cert.ReferenceIdeal.Gen Cert.Common
open Idealize.ShloMosaic Idealize.ShloMosaic.ValueIdx

theorem value_eq (x0 : (⟨S2048x1024, .f32⟩ : BufTy).Contents (Elt Ideal)) (x1 : (⟨S1024x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S256x51000, .f32⟩ : BufTy).Contents (Elt Ideal))
    (x6 : (⟨S51000, .f32⟩ : BufTy).Contents (Elt Ideal)) (x7 : (⟨S256x256, .f32⟩ : BufTy).Contents (Elt Ideal))
    (x8 : (⟨S256, .f32⟩ : BufTy).Contents (Elt Ideal)) (x9 : (⟨S256x51, .f32⟩ : BufTy).Contents (Elt Ideal))
    (x10 x11 : (⟨S51, .f32⟩ : BufTy).Contents (Elt Ideal)) (x12 : (⟨S2048x200, .i32⟩ : BufTy).Contents (Elt Ideal)) :
    Cert.ReferenceIdeal.Read.val_main_v72 (F := Ideal) x0 x1 x2 x3 x4 x5 x6 x7 x8 x9 x10 x11 x12
      = specArr x0 x1 x2 x3 x4 x5 x6 x7 x8 x9 x10 x11 (Cert.ReferenceIdeal.Read.val_main_v68 (F := Ideal) x12) := by
  funext i
  obtain ⟨b, a, rfl⟩ : ∃ (b : Fin 2048) (a : Fin 1000), i = ix2 b a := ⟨i 0, i 1, eq_ix2 i⟩
  exact Cert.RefSide.ref_apply x0 x1 x2 x3 x4 x5 x6 x7 x8 x9 x10 x11 x12 b a

end Cert.ReferenceIdeal.Final

end
-- ==== Proof.lean ====
/-
  The kernel and the reference compute one function on the extended reals when every float input is finite.

  Both are the forward pass of a dueling network with 51-bin value distributions over 1000 actions, on 2048 input
  rows: a shared hidden layer, an advantage branch and a value branch (affine layers and rectifiers), the logits
  `q = val + adv − mean over actions of adv`, a softmax over the bins clamped from below, its expectation against a
  support, the legal-move mask, and minus infinity where the masked value is exactly zero.

  The reference averages the advantage logits. The kernel averages the advantage head's weights and bias over the
  actions on the host, pads the head with 24 zero actions, and runs one tile per (512 rows, 128 padded actions): at a batch
  tile's first action tile it computes the advantage branch's hidden layer and the per-row bias
  `val − (hidden · averaged weights + averaged bias)` and keeps both for the other seven action tiles; the host then drops
  the padded actions. A mean is linear, and `adv + (val − mean) = (val + adv) − mean`: on real numbers the two groupings
  agree (`Algebra.lean`), and every intermediate value is real because every float input is (`Finite.lean`). Everything
  else — the softmax, the clamp, the mask, the zero test — is the same function of the logits on both sides
  (`Spec.lean`).

  The modules: `Spec` (the function), `Algebra`, `Finite`; the reference read entry by entry (`RefSide`, `RefFinal`);
  the kernel body's arithmetic at an index (`Payload`), what one run of the body leaves (`KernelPieces`, `KernelTile`),
  the blocks against the arrays (`KernelBlocks`), the induction over the grid (`KernelRows`), the tiles as one array and
  the host's column cut (`KernelArray`), the host's averages, paddings and mask (`HostHead`, `HostReads`, `HostMask`),
  the kernel's global function against the specification (`KernelGlobal`, `KernelSpec`), the run (`KernelFinal`).
  The ideal pass rewrote nothing, so the kernel's idealization is its own text read on the extended reals.
-/
import proofs.«128833_j24103356465503_2_alg».proof.Defs
import proofs.«128833_j24103356465503_2_alg».proof.Proof.Gen.Kernel
import proofs.«128833_j24103356465503_2_alg».proof.Proof.Gen.Kernel.Frame
import proofs.«128833_j24103356465503_2_alg».proof.Proof.Gen.KernelIdeal
import proofs.«128833_j24103356465503_2_alg».proof.Proof.Gen.KernelIdeal.Frame
import proofs.«128833_j24103356465503_2_alg».proof.Proof.Gen.ReferenceIdeal
import proofs.«128833_j24103356465503_2_alg».proof.Proof.Gen.ReferenceIdeal.Run
import proofs.«128833_j24103356465503_2_alg».proof.Proof.Gen.ReferenceIdeal.Read
import proofs.«128833_j24103356465503_2_alg».proof.Proof.Gen.Pre_finite_inputs
import proofs.«128833_j24103356465503_2_alg».proof.Proof.KernelFinal
import proofs.«128833_j24103356465503_2_alg».proof.Proof.RefFinal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the common result array of the (agreeing) argument arrays. -/
theorem algebraic : Cert.algebraic_KernelIdeal_ReferenceIdeal := by
  intro m ρ m' ρ' hpre hagree
  refine ⟨fun c => Cert.Common.specArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (Cert.ReferenceIdeal.Read.val_main_v68 (F := Ideal) (m ((c.tc : Thread Cert.KernelIdeal.nD Cert.KernelIdeal.τ).loc Cert.KernelIdeal.main_arg12))),
    Cert.KernelIdeal.Final.run_value m ρ hpre, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v72_eq, e0, e1, e2, e3, e4, e5, e6, e7, e8, e9, e10, e11, e12]
  exact Cert.ReferenceIdeal.Final.value_eq _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
